-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v89)) (v1 : (c : Dev Cert.KernelIdeal.nD) → Buf (Elt Ideal) ((c.tc : Thread Cert.KernelIdeal.nD Cert.KernelIdeal.τ).loc Cert.KernelIdeal.main_v74_1)) (v2 : (c : Dev Cert.KernelIdeal.nD) → Buf (Elt Ideal) ((c.tc : Thread Cert.KernelIdeal.nD Cert.KernelIdeal.τ).loc Cert.KernelIdeal.main_v74_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_v74_1) = v1 c
          ∧ r.2.mem ((c.tc : Thread Cert.KernelIdeal.nD Cert.KernelIdeal.τ).loc Cert.KernelIdeal.main_v74_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v133) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x128 : Shape := ⟨2, ![80000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S80000x128 : S_.BroadcastsInDim S80000x128 (![] : Fin 0 → Fin S80000x128.rank)
  reducesTo_S80000x128_S_d0_1 : S80000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S80000x128 .f32) (main_arg1 : IVec S2x640000 32) (main_arg2 : FVec F S80000x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S80000x128 .f32 := Host.absf main_arg0
  let main_cst : FVec F S_ .f32 := constant S_ .f32 0x7F800000#32
  let main_v1 : FVec F S80000x128 .f32 := broadcastInDim S80000x128 ![] bcast_S_S80000x128 main_cst
  let main_v2 : IVec S80000x128 1 := cmpf .olt main_v0 main_v1
  let main_c : IVec S_ 1 := constantI S_ 1 1#1
  let main_v3 : IVec S_ 1 := (fun x v => Host.reduce IntOp.andi x v reducesTo_S80000x128_S_d0_1 h_S_) main_v2 main_c
  let main_v4 : FVec F S80000x128 .f32 := Host.absf main_arg2
  let main_cst_0 : FVec F S_ .f32 := constant S_ .f32 0x7F800000#32
  let main_v5 : FVec F S80000x128 .f32 := broadcastInDim S80000x128 ![] bcast_S_S80000x128 main_cst_0
  let main_v6 : IVec S80000x128 1 := cmpf .olt main_v4 main_v5
  let main_c_1 : IVec S_ 1 := constantI S_ 1 1#1
  let main_v7 : IVec S_ 1 := (fun x v => Host.reduce IntOp.andi x v reducesTo_S80000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S80000x128 : Shape := ⟨2, ![80000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S80000 : Shape := ⟨1, ![80000]⟩
abbrev S720000 : Shape := ⟨1, ![720000]⟩
abbrev S_ : Shape := ⟨0, ![]⟩
abbrev S720000x1 : Shape := ⟨2, ![720000, 1]⟩
abbrev S4000x128 : Shape := ⟨2, ![4000, 128]⟩
abbrev S720000x128 : Shape := ⟨2, ![720000, 128]⟩
abbrev S1x128 : Shape := ⟨2, ![1, 128]⟩

abbrev nBuf : Space → Nat
  | .hbm => 123
  | .vmem => 44
  | .smem => 0
  | _ => 0

abbrev bufTy : (tb : Table) → Fin (tcTables nBuf tb) → BufTy
  | .hbm, ⟨0, _⟩ => ⟨S80000x128, .f32⟩
  | .hbm, ⟨1, _⟩ => ⟨S2x640000, .i32⟩
  | .hbm, ⟨2, _⟩ => ⟨S80000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S80000, .i32⟩
  | .hbm, ⟨14, _⟩ => ⟨S720000, .i32⟩
  | .hbm, ⟨15, _⟩ => ⟨S720000, .i32⟩
  | .hbm, ⟨16, _⟩ => ⟨S_, .f32⟩
  | .hbm, ⟨17, _⟩ => ⟨S720000, .f32⟩
  | .hbm, ⟨18, _⟩ => ⟨S_, .f32⟩
  | .hbm, ⟨19, _⟩ => ⟨S80000, .f32⟩
  | .hbm, ⟨20, _⟩ => ⟨S720000x1, .i32⟩
  | .hbm, ⟨21, _⟩ => ⟨S80000, .f32⟩
  | .hbm, ⟨22, _⟩ => ⟨S_, .f32⟩
  | .hbm, ⟨23, _⟩ => ⟨S80000, .f32⟩
  | .hbm, ⟨24, _⟩ => ⟨S80000, .i1⟩
  | .hbm, ⟨25, _⟩ => ⟨S80000, .f32⟩
  | .hbm, ⟨26, _⟩ => ⟨S_, .f32⟩
  | .hbm, ⟨27, _⟩ => ⟨S_, .f32⟩
  | .hbm, ⟨28, _⟩ => ⟨S80000, .f32⟩
  | .hbm, ⟨29, _⟩ => ⟨S80000, .f32⟩
  | .hbm, ⟨30, _⟩ => ⟨S_, .i32⟩
  | .hbm, ⟨31, _⟩ => ⟨S720000, .i32⟩
  | .hbm, ⟨32, _⟩ => ⟨S720000, .i1⟩
  | .hbm, ⟨33, _⟩ => ⟨S_, .i32⟩
  | .hbm, ⟨34, _⟩ => ⟨S720000, .i32⟩
  | .hbm, ⟨35, _⟩ => ⟨S720000, .i32⟩
  | .hbm, ⟨36, _⟩ => ⟨S720000, .i32⟩
  | .hbm, ⟨37, _⟩ => ⟨S720000x1, .i32⟩
  | .hbm, ⟨38, _⟩ => ⟨S720000, .f32⟩
  | .hbm, ⟨39, _⟩ => ⟨S_, .i32⟩
  | .hbm, ⟨40, _⟩ => ⟨S720000, .i32⟩
  | .hbm, ⟨41, _⟩ => ⟨S720000, .i1⟩
  | .hbm, ⟨42, _⟩ => ⟨S_, .i32⟩
  | .hbm, ⟨43, _⟩ => ⟨S720000, .i32⟩
  | .hbm, ⟨44, _⟩ => ⟨S720000, .i32⟩
  | .hbm, ⟨45, _⟩ => ⟨S720000, .i32⟩
  | .hbm, ⟨46, _⟩ => ⟨S720000x1, .i32⟩
  | .hbm, ⟨47, _⟩ => ⟨S720000, .f32⟩
  | .hbm, ⟨48, _⟩ => ⟨S720000, .f32⟩
  | .hbm, ⟨49, _⟩ => ⟨S720000x1, .f32⟩
  | .hbm, ⟨50, _⟩ => ⟨S80000x128, .f32⟩
  | .hbm, ⟨51, _⟩ => ⟨S_, .i32⟩
  | .hbm, ⟨52, _⟩ => ⟨S720000, .i32⟩
  | .hbm, ⟨53, _⟩ => ⟨S720000, .i1⟩
  | .hbm, ⟨54, _⟩ => ⟨S_, .i32⟩
  | .hbm, ⟨55, _⟩ => ⟨S720000, .i32⟩
  | .hbm, ⟨56, _⟩ => ⟨S720000, .i32⟩
  | .hbm, ⟨57, _⟩ => ⟨S720000, .i32⟩
  | .hbm, ⟨58, _⟩ => ⟨S720000x1, .i32⟩
  | .hbm, ⟨59, _⟩ => ⟨S720000x128, .f32⟩
  | .hbm, ⟨60, _⟩ => ⟨S720000x128, .f32⟩
  | .hbm, ⟨61, _⟩ => ⟨S720000x128, .f32⟩
  | .hbm, ⟨62, _⟩ => ⟨S_, .f32⟩
  | .hbm, ⟨63, _⟩ => ⟨S80000x128, .f32⟩
  | .hbm, ⟨64, _⟩ => ⟨S720000x1, .i32⟩
  | .hbm, ⟨65, _⟩ => ⟨S80000x128, .f32⟩
  | .hbm, ⟨66, _⟩ => ⟨S1x128, .f32⟩
  | .hbm, ⟨67, _⟩ => ⟨S80000x128, .f32⟩
  | .hbm, ⟨68, _⟩ => ⟨S80000x128, .f32⟩
  | .hbm, ⟨69, _⟩ => ⟨S_, .i32⟩
  | .hbm, ⟨70, _⟩ => ⟨S720000, .i32⟩
  | .hbm, ⟨71, _⟩ => ⟨S720000, .i1⟩
  | .hbm, ⟨72, _⟩ => ⟨S_, .i32⟩
  | .hbm, ⟨73, _⟩ => ⟨S720000, .i32⟩
  | .hbm, ⟨74, _⟩ => ⟨S720000, .i32⟩
  | .hbm, ⟨75, _⟩ => ⟨S720000, .i32⟩
  | .hbm, ⟨76, _⟩ => ⟨S720000x1, .i32⟩
  | .hbm, ⟨77, _⟩ => ⟨S720000x128, .f32⟩
  | .hbm, ⟨78, _⟩ => ⟨S720000x128, .f32⟩
  | .hbm, ⟨79, _⟩ => ⟨S720000x128, .f32⟩
  | .hbm, ⟨80, _⟩ => ⟨S_, .f32⟩
  | .hbm, ⟨81, _⟩ => ⟨S80000x128, .f32⟩
  | .hbm, ⟨82, _⟩ => ⟨S720000x1, .i32⟩
  | .hbm, ⟨83, _⟩ => ⟨S80000x128, .f32⟩
  | .hbm, ⟨84, _⟩ => ⟨S80000x128, .f32⟩
  | .hbm, ⟨85, _⟩ => ⟨S_, .i32⟩
  | .hbm, ⟨86, _⟩ => ⟨S720000, .i32⟩
  | .hbm, ⟨87, _⟩ => ⟨S720000, .i1⟩
  | .hbm, ⟨88, _⟩ => ⟨S_, .i32⟩
  | .hbm, ⟨89, _⟩ => ⟨S720000, .i32⟩
  | .hbm, ⟨90, _⟩ => ⟨S720000, .i32⟩
  | .hbm, ⟨91, _⟩ => ⟨S720000, .i32⟩
  | .hbm, ⟨92, _⟩ => ⟨S720000x1, .i32⟩
  | .hbm, ⟨93, _⟩ => ⟨S720000x128, .f32⟩
  | .hbm, ⟨94, _⟩ => ⟨S720000x128, .f32⟩
  | .hbm, ⟨95, _⟩ => ⟨S720000x128, .f32⟩
  | .hbm, ⟨96, _⟩ => ⟨S_, .f32⟩
  | .hbm, ⟨97, _⟩ => ⟨S80000x128, .f32⟩
  | .hbm, ⟨98, _⟩ => ⟨S720000x1, .i32⟩
  | .hbm, ⟨99, _⟩ => ⟨S80000x128, .f32⟩
  | .hbm, ⟨100, _⟩ => ⟨S1x128, .f32⟩
  | .hbm, ⟨101, _⟩ => ⟨S1x128, .f32⟩
  | .hbm, ⟨102, _⟩ => ⟨S80000x128, .f32⟩
  | .hbm, ⟨103, _⟩ => ⟨S80000x128, .f32⟩
  | .hbm, ⟨104, _⟩ => ⟨S80000x128, .f32⟩
  | .hbm, ⟨105, _⟩ => ⟨S80000x128, .f32⟩
  | .hbm, ⟨106, _⟩ => ⟨S_, .i32⟩
  | .hbm, ⟨107, _⟩ => ⟨S720000, .i32⟩
  | .hbm, ⟨108, _⟩ => ⟨S720000, .i1⟩
  | .hbm, ⟨109, _⟩ => ⟨S_, .i32⟩
  | .hbm, ⟨110, _⟩ => ⟨S720000, .i32⟩
  | .hbm, ⟨111, _⟩ => ⟨S720000, .i32⟩
  | .hbm, ⟨112, _⟩ => ⟨S720000, .i32⟩
  | .hbm, ⟨113, _⟩ => ⟨S720000x1, .i32⟩
  | .hbm, ⟨114, _⟩ => ⟨S720000x128, .f32⟩
  | .hbm, ⟨115, _⟩ => ⟨S720000x128, .f32⟩
  | .hbm, ⟨116, _⟩ => ⟨S720000x128, .f32⟩
  | .hbm, ⟨117, _⟩ => ⟨S_, .f32⟩
  | .hbm, ⟨118, _⟩ => ⟨S80000x128, .f32⟩
  | .hbm, ⟨119, _⟩ => ⟨S720000x1, .i32⟩
  | .hbm, ⟨120, _⟩ => ⟨S80000x128, .f32⟩
  | .hbm, ⟨121, _⟩ => ⟨S1x128, .f32⟩
  | .hbm, ⟨122, _⟩ => ⟨S80000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S128x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S1x128, .f32⟩
  | .local _ .vmem, ⟨23, _⟩ => ⟨S4000x128, .f32⟩
  | .local _ .vmem, ⟨24, _⟩ => ⟨S4000x128, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S128x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S1x128, .f32⟩
  | .local _ .vmem, ⟨42, _⟩ => ⟨S4000x128, .f32⟩
  | .local _ .vmem, ⟨43, _⟩ => ⟨S4000x128, .f32⟩
  | _, _ => ⟨S80000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74_0 : Ref sig .tc := ⟨.hbm, 102, rfl⟩
abbrev main_v74_1 : Ref sig .tc := ⟨.hbm, 103, rfl⟩
abbrev main_v74_2 : Ref sig .tc := ⟨.hbm, 104, rfl⟩
abbrev main_v75 : Ref sig .tc := ⟨.hbm, 105, rfl⟩
abbrev main_c_15 : Ref sig .tc := ⟨.hbm, 106, rfl⟩
abbrev main_v76 : Ref sig .tc := ⟨.hbm, 107, rfl⟩
abbrev main_v77 : Ref sig .tc := ⟨.hbm, 108, rfl⟩
abbrev main_c_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg4_1 : Ref sig .tc := ⟨.vmem, 27, rfl⟩
abbrev cc4_stg5_0 : Ref sig .tc := ⟨.vmem, 28, rfl⟩
abbrev cc4_stg5_1 : Ref sig .tc := ⟨.vmem, 29, rfl⟩
abbrev cc4_stg6_0 : Ref sig .tc := ⟨.vmem, 30, rfl⟩
abbrev cc4_stg6_1 : Ref sig .tc := ⟨.vmem, 31, rfl⟩
abbrev cc4_stg7_0 : Ref sig .tc := ⟨.vmem, 32, rfl⟩
abbrev cc4_stg7_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc4_sem3_0 : DmaSem sig := 25
abbrev cc4_sem4_0 : DmaSem sig := 26
abbrev cc4_sem4_1 : DmaSem sig := 27
abbrev cc4_sem5_0 : DmaSem sig := 28
abbrev cc4_sem5_1 : DmaSem sig := 29
abbrev cc4_sem6_0 : DmaSem sig := 30
abbrev cc4_sem6_1 : DmaSem sig := 31
abbrev cc4_sem7_0 : DmaSem sig := 32
abbrev cc4_sem7_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem2_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S4000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S4000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S4000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S80000_S720000_d0 : Shape.Concatenates [S640000, S80000] S720000 0
  bcast_S_S720000 : S_.BroadcastsInDim S720000 (![] : Fin 0 → Fin S720000.rank)
  bcast_S_S80000 : S_.BroadcastsInDim S80000 (![] : Fin 0 → Fin S80000.rank)
  bcast_S720000_S720000x1_0 : S720000.BroadcastsInDim S720000x1 (![0] : Fin 1 → Fin S720000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S720000x1_S720000x128_0_1 : S720000x1.BroadcastsInDim S720000x128 (![0, 1] : Fin 2 → Fin S720000x128.rank)
  bcast_S_S80000x128 : S_.BroadcastsInDim S80000x128 (![] : Fin 0 → Fin S80000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S80000_S720000x1_S720000_n_0_0_1_wf : ScatterDims.WF S80000 S720000x1 S720000 [] [0] [0] 1
  gather_S80000_S720000x1_S720000_n_0_n_n_0_1_1_wf : GatherDims.WF S80000 S720000x1 S720000 [] [0] [] [0] [] 1 ![1]
  dot_S4000x128_S128x128_S4000x128_1_0_0_1_n_n_wf : DotDims.WF S4000x128 S128x128 S4000x128 [1] [0] [0] [1] [] []
  gather_S80000x128_S720000x1_S720000x128_1_0_n_n_0_1_1128_wf : GatherDims.WF S80000x128 S720000x1 S720000x128 [1] [0] [] [0] [] 1 ![1, 128]
  scatter_S80000x128_S720000x1_S720000x128_1_0_0_1_wf : ScatterDims.WF S80000x128 S720000x1 S720000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S80000x128.size a
  hwx0_0 : ∀ i : grid0.Coords, EltTy.bits .f32 = 32 ∨ (Rect.block (s := S80000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S80000x128.size a
  hwx0_2 : ∀ i : grid0.Coords, EltTy.bits .f32 = 32 ∨ (Rect.block (s := S80000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S80000x128.size a
  hwx1_0 : ∀ i : grid1.Coords, EltTy.bits .f32 = 32 ∨ (Rect.block (s := S80000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S80000x128.size a
  hwx1_2 : ∀ i : grid1.Coords, EltTy.bits .f32 = 32 ∨ (Rect.block (s := S80000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S80000x128.size a
  hwx2_0 : ∀ i : grid2.Coords, EltTy.bits .f32 = 32 ∨ (Rect.block (s := S80000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S80000x128.size a
  hwx2_2 : ∀ i : grid2.Coords, EltTy.bits .f32 = 32 ∨ (Rect.block (s := S80000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S80000x128.size a
  hwx3_0 : ∀ i : grid3.Coords, EltTy.bits .f32 = 32 ∨ (Rect.block (s := S80000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S80000x128.size a
  hwx3_2 : ∀ i : grid3.Coords, EltTy.bits .f32 = 32 ∨ (Rect.block (s := S80000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S80000x128.size a
  hwx4_0 : ∀ i : grid4.Coords, EltTy.bits .f32 = 32 ∨ (Rect.block (s := S80000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S80000x128.size a
  hwx4_2 : ∀ i : grid4.Coords, EltTy.bits .f32 = 32 ∨ (Rect.block (s := S80000x128) S4000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x128.size a ≤ S80000x128.size a
  hwx4_4 : ∀ i : grid4.Coords, EltTy.bits .f32 = 32 ∨ (Rect.block (s := S80000x128) S4000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S80000x128.size a
  hwx4_5 : ∀ i : grid4.Coords, EltTy.bits .f32 = 32 ∨ (Rect.block (s := S80000x128) S4000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S80000x128.size a
  hwx4_6 : ∀ i : grid4.Coords, EltTy.bits .f32 = 32 ∨ (Rect.block (s := S80000x128) S4000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x128.size a ≤ S80000x128.size a
  hwx4_7 : ∀ i : grid4.Coords, EltTy.bits .f32 = 32 ∨ (Rect.block (s := S80000x128) S4000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S80000x128.size a
  hwx5_0 : ∀ i : grid5.Coords, EltTy.bits .f32 = 32 ∨ (Rect.block (s := S80000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S80000x128.size a
  hwx5_2 : ∀ i : grid5.Coords, EltTy.bits .f32 = 32 ∨ (Rect.block (s := S80000x128) S4000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S80000x128.size a
  hwx6_0 : ∀ i : grid6.Coords, EltTy.bits .f32 = 32 ∨ (Rect.block (s := S80000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x128.size a ≤ S80000x128.size a
  hwx6_2 : ∀ i : grid6.Coords, EltTy.bits .f32 = 32 ∨ (Rect.block (s := S80000x128) S4000x128.size (cc6_transform_2 i) (hinb6_2 i)).WholeWords (EltTy.packing .f32)

variable [Facts₀]

def scatter_S80000_S720000x1_S720000_n_0_0_1 : ScatterDims S80000 S720000x1 S720000 where
  updateWindowDims := []
  insertedWindowDims := [0]
  scatterDimsToOperandDims := [0]
  indexVectorDim := 1
  wf := scatter_S80000_S720000x1_S720000_n_0_0_1_wf
def gather_S80000_S720000x1_S720000_n_0_n_n_0_1_1 : GatherDims S80000 S720000x1 S720000 where
  offsetDims := []
  collapsedSliceDims := [0]
  operandBatchingDims := []
  startIndicesBatchingDims := []
  startIndexMap := [0]
  indexVectorDim := 1
  sliceSizes := ![1]
  wf := gather_S80000_S720000x1_S720000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S80000x128_S720000x1_S720000x128_1_0_n_n_0_1_1128 : GatherDims S80000x128 S720000x1 S720000x128 where
  offsetDims := [1]
  collapsedSliceDims := [0]
  operandBatchingDims := []
  startIndicesBatchingDims := []
  startIndexMap := [0]
  indexVectorDim := 1
  sliceSizes := ![1, 128]
  wf := gather_S80000x128_S720000x1_S720000x128_1_0_n_n_0_1_1128_wf
def scatter_S80000x128_S720000x1_S720000x128_1_0_0_1 : ScatterDims S80000x128 S720000x1 S720000x128 where
  updateWindowDims := [1]
  insertedWindowDims := [0]
  scatterDimsToOperandDims := [0]
  indexVectorDim := 1
  wf := scatter_S80000x128_S720000x1_S720000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S4000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v73) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg2) S4000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v74_0) S4000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v74_1) S4000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v74_2) S4000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v74_0) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg3) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S4000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v87) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v88) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v89) S4000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S80000x128 : Shape := ⟨2, ![80000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S80000 : Shape := ⟨1, ![80000]⟩
abbrev S720000 : Shape := ⟨1, ![720000]⟩
abbrev S_ : Shape := ⟨0, ![]⟩
abbrev S720000x1 : Shape := ⟨2, ![720000, 1]⟩
abbrev S720000x128 : Shape := ⟨2, ![720000, 128]⟩
abbrev S1x128 : Shape := ⟨2, ![1, 128]⟩

abbrev nBuf : Space → Nat
  | .hbm => 254
  | .vmem => 0
  | .smem => 0
  | _ => 0

abbrev hbmTy0_0 (i : Nat) : BufTy := match i % 128 with
  | 0 => ⟨S80000x128, .f32⟩
  | 1 => ⟨S2x640000, .i32⟩
  | 2 => ⟨S80000x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x640000, .i32⟩
  | 10 => ⟨S640000, .i32⟩
  | 11 => ⟨S1x640000, .i32⟩
  | 12 => ⟨S640000, .i32⟩
  | 13 => ⟨S80000x128, .f32⟩
  | 14 => ⟨S80000, .i32⟩
  | 15 => ⟨S720000, .i32⟩
  | 16 => ⟨S720000, .i32⟩
  | 17 => ⟨S_, .f32⟩
  | 18 => ⟨S720000, .f32⟩
  | 19 => ⟨S_, .f32⟩
  | 20 => ⟨S80000, .f32⟩
  | 21 => ⟨S720000x1, .i32⟩
  | 22 => ⟨S80000, .f32⟩
  | 23 => ⟨S_, .f32⟩
  | 24 => ⟨S80000, .f32⟩
  | 25 => ⟨S80000, .i1⟩
  | 26 => ⟨S80000, .f32⟩
  | 27 => ⟨S_, .f32⟩
  | 28 => ⟨S_, .f32⟩
  | 29 => ⟨S80000, .f32⟩
  | 30 => ⟨S80000, .f32⟩
  | 31 => ⟨S_, .i32⟩
  | 32 => ⟨S720000, .i32⟩
  | 33 => ⟨S720000, .i1⟩
  | 34 => ⟨S_, .i32⟩
  | 35 => ⟨S720000, .i32⟩
  | 36 => ⟨S720000, .i32⟩
  | 37 => ⟨S720000, .i32⟩
  | 38 => ⟨S720000x1, .i32⟩
  | 39 => ⟨S720000, .f32⟩
  | 40 => ⟨S_, .i32⟩
  | 41 => ⟨S720000, .i32⟩
  | 42 => ⟨S720000, .i1⟩
  | 43 => ⟨S_, .i32⟩
  | 44 => ⟨S720000, .i32⟩
  | 45 => ⟨S720000, .i32⟩
  | 46 => ⟨S720000, .i32⟩
  | 47 => ⟨S720000x1, .i32⟩
  | 48 => ⟨S720000, .f32⟩
  | 49 => ⟨S720000, .f32⟩
  | 50 => ⟨S_, .i32⟩
  | 51 => ⟨S720000, .i32⟩
  | 52 => ⟨S720000, .i1⟩
  | 53 => ⟨S_, .i32⟩
  | 54 => ⟨S720000, .i32⟩
  | 55 => ⟨S720000, .i32⟩
  | 56 => ⟨S720000, .i32⟩
  | 57 => ⟨S720000x1, .i32⟩
  | 58 => ⟨S720000x128, .f32⟩
  | 59 => ⟨S720000x1, .f32⟩
  | 60 => ⟨S720000x128, .f32⟩
  | 61 => ⟨S720000x128, .f32⟩
  | 62 => ⟨S_, .f32⟩
  | 63 => ⟨S80000x128, .f32⟩
  | 64 => ⟨S720000x1, .i32⟩
  | 65 => ⟨S80000x128, .f32⟩
  | 66 => ⟨S1x128, .f32⟩
  | 67 => ⟨S80000x128, .f32⟩
  | 68 => ⟨S80000x128, .f32⟩
  | 69 => ⟨S_, .f32⟩
  | 70 => ⟨S80000x128, .f32⟩
  | 71 => ⟨S80000x128, .f32⟩
  | 72 => ⟨S80000x128, .f32⟩
  | 73 => ⟨S80000, .i32⟩
  | 74 => ⟨S720000, .i32⟩
  | 75 => ⟨S720000, .i32⟩
  | 76 => ⟨S_, .f32⟩
  | 77 => ⟨S720000, .f32⟩
  | 78 => ⟨S_, .f32⟩
  | 79 => ⟨S80000, .f32⟩
  | 80 => ⟨S720000x1, .i32⟩
  | 81 => ⟨S80000, .f32⟩
  | 82 => ⟨S_, .f32⟩
  | 83 => ⟨S80000, .f32⟩
  | 84 => ⟨S80000, .i1⟩
  | 85 => ⟨S80000, .f32⟩
  | 86 => ⟨S_, .f32⟩
  | 87 => ⟨S_, .f32⟩
  | 88 => ⟨S80000, .f32⟩
  | 89 => ⟨S80000, .f32⟩
  | 90 => ⟨S_, .i32⟩
  | 91 => ⟨S720000, .i32⟩
  | 92 => ⟨S720000, .i1⟩
  | 93 => ⟨S_, .i32⟩
  | 94 => ⟨S720000, .i32⟩
  | 95 => ⟨S720000, .i32⟩
  | 96 => ⟨S720000, .i32⟩
  | 97 => ⟨S720000x1, .i32⟩
  | 98 => ⟨S720000, .f32⟩
  | 99 => ⟨S_, .i32⟩
  | 100 => ⟨S720000, .i32⟩
  | 101 => ⟨S720000, .i1⟩
  | 102 => ⟨S_, .i32⟩
  | 103 => ⟨S720000, .i32⟩
  | 104 => ⟨S720000, .i32⟩
  | 105 => ⟨S720000, .i32⟩
  | 106 => ⟨S720000x1, .i32⟩
  | 107 => ⟨S720000, .f32⟩
  | 108 => ⟨S720000, .f32⟩
  | 109 => ⟨S_, .i32⟩
  | 110 => ⟨S720000, .i32⟩
  | 111 => ⟨S720000, .i1⟩
  | 112 => ⟨S_, .i32⟩
  | 113 => ⟨S720000, .i32⟩
  | 114 => ⟨S720000, .i32⟩
  | 115 => ⟨S720000, .i32⟩
  | 116 => ⟨S720000x1, .i32⟩
  | 117 => ⟨S720000x128, .f32⟩
  | 118 => ⟨S720000x1, .f32⟩
  | 119 => ⟨S720000x128, .f32⟩
  | 120 => ⟨S720000x128, .f32⟩
  | 121 => ⟨S_, .f32⟩
  | 122 => ⟨S80000x128, .f32⟩
  | 123 => ⟨S720000x1, .i32⟩
  | 124 => ⟨S80000x128, .f32⟩
  | 125 => ⟨S1x128, .f32⟩
  | 126 => ⟨S80000x128, .f32⟩
  | 127 => ⟨S80000x128, .f32⟩
  | _ => ⟨S80000x128, .f32⟩

abbrev hbmTy0_1 (i : Nat) : BufTy := match i % 128 with
  | 0 => ⟨S80000x128, .f32⟩
  | 1 => ⟨S80000, .i32⟩
  | 2 => ⟨S720000, .i32⟩
  | 3 => ⟨S720000, .i32⟩
  | 4 => ⟨S_, .f32⟩
  | 5 => ⟨S720000, .f32⟩
  | 6 => ⟨S_, .f32⟩
  | 7 => ⟨S80000, .f32⟩
  | 8 => ⟨S720000x1, .i32⟩
  | 9 => ⟨S80000, .f32⟩
  | 10 => ⟨S_, .f32⟩
  | 11 => ⟨S80000, .f32⟩
  | 12 => ⟨S80000, .i1⟩
  | 13 => ⟨S80000, .f32⟩
  | 14 => ⟨S_, .f32⟩
  | 15 => ⟨S_, .f32⟩
  | 16 => ⟨S80000, .f32⟩
  | 17 => ⟨S80000, .f32⟩
  | 18 => ⟨S_, .i32⟩
  | 19 => ⟨S720000, .i32⟩
  | 20 => ⟨S720000, .i1⟩
  | 21 => ⟨S_, .i32⟩
  | 22 => ⟨S720000, .i32⟩
  | 23 => ⟨S720000, .i32⟩
  | 24 => ⟨S720000, .i32⟩
  | 25 => ⟨S720000x1, .i32⟩
  | 26 => ⟨S720000, .f32⟩
  | 27 => ⟨S_, .i32⟩
  | 28 => ⟨S720000, .i32⟩
  | 29 => ⟨S720000, .i1⟩
  | 30 => ⟨S_, .i32⟩
  | 31 => ⟨S720000, .i32⟩
  | 32 => ⟨S720000, .i32⟩
  | 33 => ⟨S720000, .i32⟩
  | 34 => ⟨S720000x1, .i32⟩
  | 35 => ⟨S720000, .f32⟩
  | 36 => ⟨S720000, .f32⟩
  | 37 => ⟨S_, .i32⟩
  | 38 => ⟨S720000, .i32⟩
  | 39 => ⟨S720000, .i1⟩
  | 40 => ⟨S_, .i32⟩
  | 41 => ⟨S720000, .i32⟩
  | 42 => ⟨S720000, .i32⟩
  | 43 => ⟨S720000, .i32⟩
  | 44 => ⟨S720000x1, .i32⟩
  | 45 => ⟨S720000x128, .f32⟩
  | 46 => ⟨S720000x1, .f32⟩
  | 47 => ⟨S720000x128, .f32⟩
  | 48 => ⟨S720000x128, .f32⟩
  | 49 => ⟨S_, .f32⟩
  | 50 => ⟨S80000x128, .f32⟩
  | 51 => ⟨S720000x1, .i32⟩
  | 52 => ⟨S80000x128, .f32⟩
  | 53 => ⟨S1x128, .f32⟩
  | 54 => ⟨S80000x128, .f32⟩
  | 55 => ⟨S80000x128, .f32⟩
  | 56 => ⟨S_, .f32⟩
  | 57 => ⟨S80000x128, .f32⟩
  | 58 => ⟨S80000x128, .f32⟩
  | 59 => ⟨S80000x128, .f32⟩
  | 60 => ⟨S80000x128, .f32⟩
  | 61 => ⟨S80000x128, .f32⟩
  | 62 => ⟨S80000x128, .f32⟩
  | 63 => ⟨S80000, .i32⟩
  | 64 => ⟨S720000, .i32⟩
  | 65 => ⟨S720000, .i32⟩
  | 66 => ⟨S_, .f32⟩
  | 67 => ⟨S720000, .f32⟩
  | 68 => ⟨S_, .f32⟩
  | 69 => ⟨S80000, .f32⟩
  | 70 => ⟨S720000x1, .i32⟩
  | 71 => ⟨S80000, .f32⟩
  | 72 => ⟨S_, .f32⟩
  | 73 => ⟨S80000, .f32⟩
  | 74 => ⟨S80000, .i1⟩
  | 75 => ⟨S80000, .f32⟩
  | 76 => ⟨S_, .f32⟩
  | 77 => ⟨S_, .f32⟩
  | 78 => ⟨S80000, .f32⟩
  | 79 => ⟨S80000, .f32⟩
  | 80 => ⟨S_, .i32⟩
  | 81 => ⟨S720000, .i32⟩
  | 82 => ⟨S720000, .i1⟩
  | 83 => ⟨S_, .i32⟩
  | 84 => ⟨S720000, .i32⟩
  | 85 => ⟨S720000, .i32⟩
  | 86 => ⟨S720000, .i32⟩
  | 87 => ⟨S720000x1, .i32⟩
  | 88 => ⟨S720000, .f32⟩
  | 89 => ⟨S_, .i32⟩
  | 90 => ⟨S720000, .i32⟩
  | 91 => ⟨S720000, .i1⟩
  | 92 => ⟨S_, .i32⟩
  | 93 => ⟨S720000, .i32⟩
  | 94 => ⟨S720000, .i32⟩
  | 95 => ⟨S720000, .i32⟩
  | 96 => ⟨S720000x1, .i32⟩
  | 97 => ⟨S720000, .f32⟩
  | 98 => ⟨S720000, .f32⟩
  | 99 => ⟨S_, .i32⟩
  | 100 => ⟨S720000, .i32⟩
  | 101 => ⟨S720000, .i1⟩
  | 102 => ⟨S_, .i32⟩
  | 103 => ⟨S720000, .i32⟩
  | 104 => ⟨S720000, .i32⟩
  | 105 => ⟨S720000, .i32⟩
  | 106 => ⟨S720000x1, .i32⟩
  | 107 => ⟨S720000x128, .f32⟩
  | 108 => ⟨S720000x1, .f32⟩
  | 109 => ⟨S720000x128, .f32⟩
  | 110 => ⟨S720000x128, .f32⟩
  | 111 => ⟨S_, .f32⟩
  | 112 => ⟨S80000x128, .f32⟩
  | 113 => ⟨S720000x1, .i32⟩
  | 114 => ⟨S80000x128, .f32⟩
  | 115 => ⟨S1x128, .f32⟩
  | 116 => ⟨S80000x128, .f32⟩
  | 117 => ⟨S80000x128, .f32⟩
  | 118 => ⟨S80000x128, .f32⟩
  | 119 => ⟨S80000x128, .f32⟩
  | 120 => ⟨S_, .f32⟩
  | 121 => ⟨S80000x128, .f32⟩
  | 122 => ⟨S80000x128, .f32⟩
  | 123 => ⟨S_, .f32⟩
  | 124 => ⟨S80000x128, .f32⟩
  | 125 => ⟨S80000x128, .f32⟩
  | _ => ⟨S80000x128, .f32⟩

abbrev hbmTy (i : Nat) : BufTy := match i / 128 with
  | 0 => hbmTy0_0 i
  | 1 => hbmTy0_1 i
  | _ => ⟨S80000x128, .f32⟩

abbrev bufTy : (tb : Table) → Fin (tcTables nBuf tb) → BufTy
  | .hbm, ⟨i, _⟩ => hbmTy i
  | _, _ => ⟨S80000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_20 : Ref sig .tc := ⟨.hbm, 132, rfl⟩
abbrev main_v95 : Ref sig .tc := ⟨.hbm, 133, rfl⟩
abbrev main_cst_21 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_22 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_23 : Ref sig .tc := ⟨.hbm, 142, rfl⟩
abbrev main_call3_v0 : Ref sig .tc := ⟨.hbm, 143, rfl⟩
abbrev main_call3_v1 : Ref sig .tc := ⟨.hbm, 144, rfl⟩
abbrev main_v102 : Ref sig .tc := ⟨.hbm, 145, rfl⟩
abbrev main_c_24 : Ref sig .tc := ⟨.hbm, 146, rfl⟩
abbrev main_v103 : Ref sig .tc := ⟨.hbm, 147, rfl⟩
abbrev main_v104 : Ref sig .tc := ⟨.hbm, 148, rfl⟩
abbrev main_c_25 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_c_26 : Ref sig .tc := ⟨.hbm, 155, rfl⟩
abbrev main_v110 : Ref sig .tc := ⟨.hbm, 156, rfl⟩
abbrev main_v111 : Ref sig .tc := ⟨.hbm, 157, rfl⟩
abbrev main_c_27 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_c_28 : Ref sig .tc := ⟨.hbm, 165, rfl⟩
abbrev main_v118 : Ref sig .tc := ⟨.hbm, 166, rfl⟩
abbrev main_v119 : Ref sig .tc := ⟨.hbm, 167, rfl⟩
abbrev main_c_29 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_30 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_31 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_32 : Ref sig .tc := ⟨.hbm, 194, rfl⟩
abbrev main_v143 : Ref sig .tc := ⟨.hbm, 195, rfl⟩
abbrev main_cst_33 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_34 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_35 : Ref sig .tc := ⟨.hbm, 204, rfl⟩
abbrev main_call4_v0 : Ref sig .tc := ⟨.hbm, 205, rfl⟩
abbrev main_call4_v1 : Ref sig .tc := ⟨.hbm, 206, rfl⟩
abbrev main_v150 : Ref sig .tc := ⟨.hbm, 207, rfl⟩
abbrev main_c_36 : Ref sig .tc := ⟨.hbm, 208, rfl⟩
abbrev main_v151 : Ref sig .tc := ⟨.hbm, 209, rfl⟩
abbrev main_v152 : Ref sig .tc := ⟨.hbm, 210, rfl⟩
abbrev main_c_37 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_c_38 : Ref sig .tc := ⟨.hbm, 217, rfl⟩
abbrev main_v158 : Ref sig .tc := ⟨.hbm, 218, rfl⟩
abbrev main_v159 : Ref sig .tc := ⟨.hbm, 219, rfl⟩
abbrev main_c_39 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_c_40 : Ref sig .tc := ⟨.hbm, 227, rfl⟩
abbrev main_v166 : Ref sig .tc := ⟨.hbm, 228, rfl⟩
abbrev main_v167 : Ref sig .tc := ⟨.hbm, 229, rfl⟩
abbrev main_c_41 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_cst_42 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_cst_43 : Ref sig .tc := ⟨.hbm, 248, rfl⟩
abbrev main_v184 : Ref sig .tc := ⟨.hbm, 249, rfl⟩
abbrev main_v185 : Ref sig .tc := ⟨.hbm, 250, rfl⟩
abbrev main_cst_44 : Ref sig .tc := ⟨.hbm, 251, rfl⟩
abbrev main_v186 : Ref sig .tc := ⟨.hbm, 252, rfl⟩
abbrev main_v187 : Ref sig .tc := ⟨.hbm, 253, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S80000_S720000_d0 : Shape.Concatenates [S640000, S80000] S720000 0
  bcast_S_S720000 : S_.BroadcastsInDim S720000 (![] : Fin 0 → Fin S720000.rank)
  bcast_S_S80000 : S_.BroadcastsInDim S80000 (![] : Fin 0 → Fin S80000.rank)
  bcast_S720000_S720000x1_0 : S720000.BroadcastsInDim S720000x1 (![0] : Fin 1 → Fin S720000x1.rank)
  bcast_S720000x1_S720000x128_0_1 : S720000x1.BroadcastsInDim S720000x128 (![0, 1] : Fin 2 → Fin S720000x128.rank)
  bcast_S_S80000x128 : S_.BroadcastsInDim S80000x128 (![] : Fin 0 → Fin S80000x128.rank)
  bcast_S128_S1x128_1 : S128.BroadcastsInDim S1x128 (![1] : Fin 1 → Fin S1x128.rank)
  bcast_S1x128_S80000x128_0_1 : S1x128.BroadcastsInDim S80000x128 (![0, 1] : Fin 2 → Fin S80000x128.rank)
  dot_S80000x128_S128x128_S80000x128_1_0_0_1_n_n_wf : DotDims.WF S80000x128 S128x128 S80000x128 [1] [0] [0] [1] [] []
  scatter_S80000_S720000x1_S720000_n_0_0_1_wf : ScatterDims.WF S80000 S720000x1 S720000 [] [0] [0] 1
  gather_S80000_S720000x1_S720000_n_0_n_n_0_1_1_wf : GatherDims.WF S80000 S720000x1 S720000 [] [0] [] [0] [] 1 ![1]
  gather_S80000x128_S720000x1_S720000x128_1_0_n_n_0_1_1128_wf : GatherDims.WF S80000x128 S720000x1 S720000x128 [1] [0] [] [0] [] 1 ![1, 128]
  scatter_S80000x128_S720000x1_S720000x128_1_0_0_1_wf : ScatterDims.WF S80000x128 S720000x1 S720000x128 [1] [0] [0] 1

variable [Facts₀]

def dot_S80000x128_S128x128_S80000x128_1_0_0_1_n_n : DotDims S80000x128 S128x128 S80000x128 where
  lhsContracting := [1]
  rhsContracting := [0]
  lhsNonContracting := [0]
  rhsNonContracting := [1]
  lhsBatch := []
  rhsBatch := []
  wf := dot_S80000x128_S128x128_S80000x128_1_0_0_1_n_n_wf
def scatter_S80000_S720000x1_S720000_n_0_0_1 : ScatterDims S80000 S720000x1 S720000 where
  updateWindowDims := []
  insertedWindowDims := [0]
  scatterDimsToOperandDims := [0]
  indexVectorDim := 1
  wf := scatter_S80000_S720000x1_S720000_n_0_0_1_wf
def gather_S80000_S720000x1_S720000_n_0_n_n_0_1_1 : GatherDims S80000 S720000x1 S720000 where
  offsetDims := []
  collapsedSliceDims := [0]
  operandBatchingDims := []
  startIndicesBatchingDims := []
  startIndexMap := [0]
  indexVectorDim := 1
  sliceSizes := ![1]
  wf := gather_S80000_S720000x1_S720000_n_0_n_n_0_1_1_wf
def gather_S80000x128_S720000x1_S720000x128_1_0_n_n_0_1_1128 : GatherDims S80000x128 S720000x1 S720000x128 where
  offsetDims := [1]
  collapsedSliceDims := [0]
  operandBatchingDims := []
  startIndicesBatchingDims := []
  startIndexMap := [0]
  indexVectorDim := 1
  sliceSizes := ![1, 128]
  wf := gather_S80000x128_S720000x1_S720000x128_1_0_n_n_0_1_1128_wf
def scatter_S80000x128_S720000x1_S720000x128_1_0_0_1 : ScatterDims S80000x128 S720000x1 S720000x128 where
  updateWindowDims := [1]
  insertedWindowDims := [0]
  scatterDimsToOperandDims := [0]
  indexVectorDim := 1
  wf := scatter_S80000x128_S720000x1_S720000x128_1_0_0_1_wf

class Facts : Prop extends Facts₀ where

variable [Facts]
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibDenseLayers.lean ====
/-
  The dense pieces of a two-layer graph-convolution encoder and of its edge decoder, as index-by-index functions over
  the extended reals:

  * `project x w` — the feature projection `x · w`: entry `(n, f)` is `∑ k, x (n, k) · w (k, f)`;
  * `addRow a b` — the bias row `b` (shape `[1, N]`) added to every node's feature row;
  * `addRowClamp a b` — the same followed by the clamp at zero, `max (· ) 0`;
  * `rowDots u v` — one number per edge, the dot product `∑ k, u (e, k) · v (e, k)` of its two end points' features.

  The second half shows that the host operations a plain array program uses for these pieces — a `dot_general` with
  ordinary matrix-product dimension numbers, an addition of a twice-broadcast bias vector (clamped or not by a `maximum`
  with a broadcast zero), and a sum over the feature axis of an elementwise product — ARE these functions.  No law of
  arithmetic is needed beyond `0 + s = s`: the same sums and products appear on both sides, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«173282_j33715493273730_1_alg».proof.Proof.LibPlainDot

noncomputable section

namespace Cert.Layers

open Idealize.ShloMosaic Idealize.ShloMosaic.ValueIdx

variable {M K N : Nat}

/-- The projection `x · w` of `M` feature rows of length `K` to length `N`. -/
def project (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (i 0) k) * w (ix2 (n1 := N) k (i 1))

/-- The bias row `b` added to every row of `a`. -/
def addRow (a : (⟨2, ![M, N]⟩ : Shape).Idx → EReal) (b : (⟨2, ![1, N]⟩ : Shape).Idx → EReal) :
    (⟨2, ![M, N]⟩ : Shape).Idx → EReal :=
  fun i => a i + b (ix2 (n1 := N) (0 : Fin 1) (i 1))

/-- The bias row added to every row, then the clamp at zero. -/
def addRowClamp (a : (⟨2, ![M, N]⟩ : Shape).Idx → EReal) (b : (⟨2, ![1, N]⟩ : Shape).Idx → EReal) :
    (⟨2, ![M, N]⟩ : Shape).Idx → EReal :=
  fun i => max (a i + b (ix2 (n1 := N) (0 : Fin 1) (i 1))) 0

/-- Row by row, the dot product of `u`'s row with `v`'s. -/
def rowDots (u v : (⟨2, ![M, K]⟩ : Shape).Idx → EReal) : (⟨1, ![M]⟩ : Shape).Idx → EReal :=
  fun i => ∑ k : Fin K, u (ix2 (n0 := M) (i 0) k) * v (ix2 (n0 := M) (i 0) k)

theorem project_apply (x : (⟨2, ![M, K]⟩ : Shape).Idx → EReal) (w : (⟨2, ![K, N]⟩ : Shape).Idx → EReal) (p : Fin M) (q : Fin N) :
    project x w (ix2 p q) = ∑ k : Fin K, x (ix2 p k) * w (ix2 k q) := rfl

/-! ## The host's operations are these functions -/

/-- A host `dot_general` whose dimension numbers are the ordinary matrix product's is the projection. -/
theorem dotGeneral_eq_project (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral d prec x w = project x w := by
  subst hd
  funext i
  obtain ⟨p, q, rfl⟩ : ∃ (p : Fin M) (q : Fin N), i = ix2 p q := ⟨i 0, i 1, eq_ix2 i⟩
  exact Cert.Lib.dotGeneral_plain_apply prec _ x w p q

/-- A bias vector broadcast to a row and then over all rows, read at `(p, q)`, is its entry `q`; so is the vector
    reshaped to a row and read at `(0, q)`. -/
theorem bias_bcast_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) (p : Fin M) (q : Fin N) :
    broadcastInDim ⟨2, ![M, N]⟩ ![0, 1] h2 (broadcastInDim ⟨2, ![1, N]⟩ ![1] h1 b) (ix2 p q)
      = shapeCast ⟨2, ![1, N]⟩ b hc (ix2 (0 : Fin 1) q) := by
  rw [shapeCast_a_1a_apply b hc (0 : Fin 1) q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- Adding the twice-broadcast bias vector is adding the bias row. -/
theorem addf_bias_eq_addRow (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 b))
      = addRow a (shapeCast ⟨2, ![1, N]⟩ b hc) := by
  funext i
  obtain ⟨p, q, rfl⟩ : ∃ (p : Fin M) (q : Fin N), i = ix2 p q := ⟨i 0, i 1, eq_ix2 i⟩
  show a (ix2 p q) + _ = a (ix2 p q) + shapeCast ⟨2, ![1, N]⟩ b hc (ix2 (0 : Fin 1) q)
  rw [bias_bcast_apply b h1 h2 hc p q]

/-- The clamp by a `maximum` with the broadcast zero constant of the biased features is `addRowClamp`. -/
theorem maximumf_bias_eq_addRowClamp (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = addRowClamp a (shapeCast ⟨2, ![1, N]⟩ b hc) := by
  rw [addf_bias_eq_addRow a b h1 h2 hc]
  funext i
  show max (addRow a _ i) (broadcastInDim ⟨2, ![M, N]⟩ ![] h0 (constant (F := Ideal) ⟨0, ![]⟩ .f32 0x00000000#32) i) = max (addRow a _ i) 0
  rw [broadcastInDim_apply ![] h0 _ i ix0 (fun a => a.elim0)]
  show max _ (Ideal.ofBits .f32 0x00000000#32) = _
  rw [Ideal.ofBits_zero_f32]

end Cert.Layers

end
-- ==== Proof.GraphSpec.lean ====
/-
  The layers of a variational graph auto-encoder over a fixed graph, as functions of whole arrays over the extended reals.

  The graph has 80000 nodes with 128 features each and a list of 640000 directed edges (a row of sources and a row of
  targets); every node also gets a self loop.  One graph convolution of the node features `x` with weights `w` and
  bias `b` is

      conv e x w b = Â · (x · w) + b,        Â = D^(-1/2) (A + I) D^(-1/2),

  where `A` is the adjacency matrix of the edge list `e` and `D` the diagonal of the in-degrees of `A + I`.

  * `sources e`, `targets e`: the 720000 end points, the edges' first and then the self loops'.
    `degree e`: a one added at every target.  `dinv e`: `1 / sqrt degree` where the degree is positive, zero elsewhere.
    `normCol e`: per edge, `dinv (source) · dinv (target)`, as a column (a negative node number counts from the end, as
    array indexing does).
  * `aggregate e h` is the product `Â · h`: every edge `s → d` sends the row `h s`, scaled by the edge's normalisation, to
    node `d`, and a node's row is the sum of what it receives.  It is written ONCE, with the array operations both programs
    use for it (gather the rows, scale, scatter-add); nothing outside this file and the stretches that compute it ever looks
    inside: both programs apply this same function, and all that is used of it is that equal arguments give equal results.
  * `project x w` (matrix product), `addRow` (bias) and `addRowClamp` (bias, then `max · 0`) are the dense pieces, index
    by index; `hidden` is the encoder's first layer, `conv` the two heads (mean and log-variance) and the decoder's
    pre-activation, `sample eps lv mu = eps · exp (lv / 2) + mu` the reparameterised latent, `squash` the logistic function
    entry by entry.
  * `refConv`, `refHidden`, `refSample`, `refSquash` spell the same layers with whole-array operations, as a plain array
    program does (a matrix product as `dot_general`, the bias broadcast twice, the clamp as a `maximum` with a broadcast
    zero, the logistic function expanded into negate, exponential, add and divide).
-/
import proofs.«173282_j33715493273730_1_alg».proof.Proof.Gen.ReferenceIdeal
import proofs.«173282_j33715493273730_1_alg».proof.Proof.LibPlainDot
import proofs.«173282_j33715493273730_1_alg».proof.Proof.LibDenseLayers
import Idealize.ShloMosaic.PureOps.Ideal
import Idealize.ShloMosaic.Lib.ValueIdx

noncomputable section

namespace Cert.Graph

open Idealize.ShloMosaic Idealize.ShloMosaic.ValueIdx Cert.ReferenceIdeal Cert.ReferenceIdeal.Gen Cert.Layers

/-- The edge list: row 0 the sources, row 1 the targets. -/
abbrev Edges := (⟨S2x640000, .i32⟩ : BufTy).Contents (Elt Ideal)
/-- One node number per edge and per self loop. -/
abbrev Ends := (⟨S720000, .i32⟩ : BufTy).Contents (Elt Ideal)
/-- One row of 128 features per node. -/
abbrev Feat := FVec Ideal S80000x128 .f32
abbrev Weights := FVec Ideal S128x128 .f32
abbrev Bias := FVec Ideal S128 .f32

/-! ## The graph's structure, from the edge list alone -/

/-- The sources of all edges, then every node (the self loops). -/
def sources (e : Edges) : Ends :=
  concatenate S720000 0 [⟨S640000, (shapeCast _ (extractStridedSlice S1x640000 ![0, 0] e slices_S2x640000_S1x640000_0_0) shapeCasts_S1x640000_S640000)⟩, ⟨S80000, (iotaInDim S80000 32 0)⟩] concatenates_S640000_S80000_S720000_d0

/-- The targets of all edges, then every node. -/
def targets (e : Edges) : Ends :=
  concatenate S720000 0 [⟨S640000, (shapeCast _ (extractStridedSlice S1x640000 ![1, 0] e slices_S2x640000_S1x640000_1_0) shapeCasts_S1x640000_S640000)⟩, ⟨S80000, (iotaInDim S80000 32 0)⟩] concatenates_S640000_S80000_S720000_d0

/-- The in-degree with self loops: a one added at every target. -/
def degree (e : Edges) : FVec Ideal S80000 .f32 :=
  Host.scatterAdd scatter_S80000_S720000x1_S720000_n_0_0_1 (broadcastInDim S80000 ![] bcast_S_S80000 (constant S_ .f32 0x00000000#32))
    (broadcastInDim S720000x1 ![0] bcast_S720000_S720000x1_0 (targets e))
    (broadcastInDim S720000 ![] bcast_S_S720000 (constant S_ .f32 0x3F800000#32))

/-- Where the degree is positive. -/
def positive (e : Edges) : IVec S80000 1 :=
  cmpf (F := Ideal) .ogt (degree e) (broadcastInDim S80000 ![] bcast_S_S80000 (constant S_ .f32 0x00000000#32))

/-- One over the square root of the degree. -/
def recipSqrt (e : Edges) : FVec Ideal S80000 .f32 := Host.rsqrt (degree e)

/-- The scalar zero. -/
def zeroScalar : FVec Ideal S_ .f32 := constant S_ .f32 0x00000000#32

/-- `1 / sqrt degree` where the degree is positive, zero elsewhere. -/
def dinv (e : Edges) : FVec Ideal S80000 .f32 :=
  select (positive e) (recipSqrt e) (broadcastInDim S80000 ![] bcast_S_S80000 (id zeroScalar))

/-- A node number as an array index: a negative one counts from the end. -/
def wrap (ix : Ends) : Ends :=
  select (cmpi .slt ix (broadcastInDim S720000 ![] bcast_S_S720000 (constantI S_ 32 0#32)))
    (addi ix (broadcastInDim S720000 ![] bcast_S_S720000 (constantI S_ 32 80000#32))) ix

/-- A per-node quantity read at each end point of a list. -/
def atEnds (v : FVec Ideal S80000 .f32) (ix : Ends) : FVec Ideal S720000 .f32 :=
  Host.gather gather_S80000_S720000x1_S720000_n_0_n_n_0_1_1 v (broadcastInDim S720000x1 ![0] bcast_S720000_S720000x1_0 (wrap ix))

/-- Per edge (and self loop) `dinv (source) · dinv (target)`, as a column. -/
def normCol (e : Edges) : FVec Ideal S720000x1 .f32 :=
  broadcastInDim S720000x1 ![0] bcast_S720000_S720000x1_0 (mulf (atEnds (dinv e) (sources e)) (atEnds (dinv e) (targets e)))

/-- `Â · h`: gather the source rows of all edges and self loops, scale each by the edge's normalisation, and add them up at
    the targets. -/
def aggregate (e : Edges) (h : Feat) : Feat :=
  Host.scatterAdd scatter_S80000x128_S720000x1_S720000x128_1_0_0_1
    (broadcastInDim S80000x128 ![] bcast_S_S80000x128 (constant S_ .f32 0x00000000#32))
    (broadcastInDim S720000x1 ![0] bcast_S720000_S720000x1_0 (targets e))
    (mulf (Host.gather gather_S80000x128_S720000x1_S720000x128_1_0_n_n_0_1_1128 h (broadcastInDim S720000x1 ![0] bcast_S720000_S720000x1_0 (wrap (sources e))))
      (broadcastInDim S720000x128 ![0, 1] bcast_S720000x1_S720000x128_0_1 (normCol e)))

/-! ## The layers, index by index -/

/-- A bias vector as a row `[1, 128]`. -/
def row (b : Bias) : FVec Ideal S1x128 .f32 := shapeCast S1x128 b (by decide)

/-- `Â · (x · w) + b`. -/
def conv (e : Edges) (x : Feat) (w : Weights) (b : Bias) : Feat :=
  addRow (M := 80000) (N := 128) (aggregate e (project (M := 80000) (K := 128) (N := 128) x w)) (row b)

/-- `max (Â · (x · w) + b) 0`. -/
def hidden (e : Edges) (x : Feat) (w : Weights) (b : Bias) : Feat :=
  addRowClamp (M := 80000) (N := 128) (aggregate e (project (M := 80000) (K := 128) (N := 128) x w)) (row b)

/-- `eps · exp (lv / 2) + mu`, entry by entry (the half is the float `0.5`, an exact binary fraction). -/
def sample (eps lv mu : Feat) : Feat := fun i =>
  FloatOps.addf (FloatOps.mulf (eps i) (FloatOps.exp (FloatOps.mulf (Ideal.ofBits .f32 0x3F000000#32) (lv i)))) (mu i)

/-- The logistic function `1 / (1 + exp (-a))`, entry by entry. -/
def squash (a : Feat) : Feat := fun i => FloatOps.logistic (a i)

/-! ## The same layers in whole-array operations -/

def refConv (e : Edges) (x : Feat) (w : Weights) (b : Bias) : Feat :=
  addf (aggregate e (Host.dotGeneral dot_S80000x128_S128x128_S80000x128_1_0_0_1_n_n none x w))
    (broadcastInDim S80000x128 ![0, 1] bcast_S1x128_S80000x128_0_1 (broadcastInDim S1x128 ![1] bcast_S128_S1x128_1 b))

def refHidden (e : Edges) (x : Feat) (w : Weights) (b : Bias) : Feat :=
  maximumf (refConv e x w b) (broadcastInDim S80000x128 ![] bcast_S_S80000x128 (constant S_ .f32 0x00000000#32))

def refSample (eps lv mu : Feat) : Feat :=
  addf (mulf eps (Host.exp (mulf (broadcastInDim S80000x128 ![] bcast_S_S80000x128 (constant S_ .f32 0x3F000000#32)) lv))) mu

def refSquash (a : Feat) : Feat :=
  Host.divf (broadcastInDim S80000x128 ![] bcast_S_S80000x128 (constant S_ .f32 0x3F800000#32))
    (addf (broadcastInDim S80000x128 ![] bcast_S_S80000x128 (constant S_ .f32 0x3F800000#32)) (Host.exp (Host.negf a)))

end Cert.Graph

end
-- ==== Proof.NamedRun.lean ====
/-
  The idealized kernel's run with its three results named.

  The program is seven kernel launches among stretches of array operations.  Its run is the fold of the buffer contents
  through these fourteen segments, from the launch memory to the contents `W14` at the return: a stretch of array
  operations replaces the contents by the operations' results, a kernel launch replaces its output arrays by what its
  write-backs leave.  Every weakly fair execution terminates without a fault in a state whose unscoped buffers hold
  exactly `W14`; read at the three result buffers that gives the results, read at the nine argument buffers it gives the
  arguments as launched.  (The frame claim reads only the arguments; this is the same run with the results read too.)
-/
import proofs.«173282_j33715493273730_1_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each result buffer at the final fold's
    contents and every argument as launched. -/
theorem run : θ_run defs (onTc (τ := τ) (main (F := F))) ⟨m, fun _ => 0, ρ⟩ (fun r => ∀ c : Dev nD,
      r.2.mem ((c.tc : Thread nD τ).loc main_v89) = W14 m ρ c (Proc.devRef .tc main_v89)
      ∧ r.2.mem ((c.tc : Thread nD τ).loc main_v74_1) = W14 m ρ c (Proc.devRef .tc main_v74_1)
      ∧ r.2.mem ((c.tc : Thread nD τ).loc main_v74_2) = W14 m ρ c (Proc.devRef .tc main_v74_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v89 (by decide)),
       h c _ (mem_uc main_v74_1 (by decide)),
       h c _ (mem_uc main_v74_2 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.NamedRun

end
-- ==== Proof.Stretches.lean ====
/-
  The stretches of array operations between the kernel launches, each read as a function of an ARBITRARY contents `U`
  of the buffers when the stretch begins.

  * The first three stretches compute, from the edge list alone, what every aggregation needs: the sources and the
    targets of all edges with the self loops appended, the in-degrees (a scatter-add of ones at the targets),
    `dinv = 1 / sqrt degree` (zero where the degree is not positive), and the column of edge normalisations
    `dinv (source) · dinv (target)`.  These are operation for operation the stages of the specification, so each is that
    stage by unfolding.
  * Each later stretch is one aggregation `Â · h` of the table `h` the previous launch produced (gather the source
    rows, scale by the normalisation column, scatter-add at the targets) and, where the next launch wants one, a bias
    vector laid out as a row.
  * A buffer a stretch does not write keeps its contents.
-/
import proofs.«173282_j33715493273730_1_alg».proof.Proof.Gen.KernelIdeal.Launch
import proofs.«173282_j33715493273730_1_alg».proof.Proof.GraphSpec
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen

variable (U : Valuation τ sig (Elt Ideal))

/-! ## What each stretch leaves alone -/

/-- The references `hostOps0` writes. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt Ideal))).Forall fun op => op.writes ⊆ ((hostOps0_W).map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A buffer `hostOps0` does not write keeps its contents. -/
theorem hostOps0_kept (r : Ref sig .tc) (h : r ∉ hostOps0_W) : StableHlo.after hostOps0 U (Proc.devRef .tc r) = U (Proc.devRef .tc r) :=
  StableHlo.after_of_writes_sub hostOps0 _ hostOps0_writes h

/-- The references `hostOps0_1` writes. -/
abbrev hostOps0_1_W : List (Ref sig .tc) := [main_call0_v0, main_call0_v1, main_v14]
theorem hostOps0_1_writes : (hostOps0_1 : List (HloOp τ sig (Elt Ideal))).Forall fun op => op.writes ⊆ ((hostOps0_1_W).map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A buffer `hostOps0_1` does not write keeps its contents. -/
theorem hostOps0_1_kept (r : Ref sig .tc) (h : r ∉ hostOps0_1_W) : StableHlo.after hostOps0_1 U (Proc.devRef .tc r) = U (Proc.devRef .tc r) :=
  StableHlo.after_of_writes_sub hostOps0_1 _ hostOps0_1_writes h

/-- The references `hostOps0_2` writes. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29, main_v30]
theorem hostOps0_2_writes : (hostOps0_2 : List (HloOp τ sig (Elt Ideal))).Forall fun op => op.writes ⊆ ((hostOps0_2_W).map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A buffer `hostOps0_2` does not write keeps its contents. -/
theorem hostOps0_2_kept (r : Ref sig .tc) (h : r ∉ hostOps0_2_W) : StableHlo.after hostOps0_2 U (Proc.devRef .tc r) = U (Proc.devRef .tc r) :=
  StableHlo.after_of_writes_sub hostOps0_2 _ hostOps0_2_writes h

/-- The references `hostOps1` writes. -/
abbrev hostOps1_W : List (Ref sig .tc) := [main_c_6, main_v32, main_v33, main_c_7, main_v34, main_v35, main_v36, main_v37, main_v38, main_v39, main_v40, main_cst_8, main_v41, main_v42, main_v43, main_v44]
theorem hostOps1_writes : (hostOps1 : List (HloOp τ sig (Elt Ideal))).Forall fun op => op.writes ⊆ ((hostOps1_W).map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A buffer `hostOps1` does not write keeps its contents. -/
theorem hostOps1_kept (r : Ref sig .tc) (h : r ∉ hostOps1_W) : StableHlo.after hostOps1 U (Proc.devRef .tc r) = U (Proc.devRef .tc r) :=
  StableHlo.after_of_writes_sub hostOps1 _ hostOps1_writes h

/-- The references `hostOps3` writes. -/
abbrev hostOps3_W : List (Ref sig .tc) := [main_c_9, main_v47, main_v48, main_c_10, main_v49, main_v50, main_v51, main_v52, main_v53, main_v54, main_v55, main_cst_11, main_v56, main_v57, main_v58]
theorem hostOps3_writes : (hostOps3 : List (HloOp τ sig (Elt Ideal))).Forall fun op => op.writes ⊆ ((hostOps3_W).map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A buffer `hostOps3` does not write keeps its contents. -/
theorem hostOps3_kept (r : Ref sig .tc) (h : r ∉ hostOps3_W) : StableHlo.after hostOps3 U (Proc.devRef .tc r) = U (Proc.devRef .tc r) :=
  StableHlo.after_of_writes_sub hostOps3 _ hostOps3_writes h

/-- The references `hostOps4` writes. -/
abbrev hostOps4_W : List (Ref sig .tc) := [main_c_12, main_v60, main_v61, main_c_13, main_v62, main_v63, main_v64, main_v65, main_v66, main_v67, main_v68, main_cst_14, main_v69, main_v70, main_v71, main_v72, main_v73]
theorem hostOps4_writes : (hostOps4 : List (HloOp τ sig (Elt Ideal))).Forall fun op => op.writes ⊆ ((hostOps4_W).map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A buffer `hostOps4` does not write keeps its contents. -/
theorem hostOps4_kept (r : Ref sig .tc) (h : r ∉ hostOps4_W) : StableHlo.after hostOps4 U (Proc.devRef .tc r) = U (Proc.devRef .tc r) :=
  StableHlo.after_of_writes_sub hostOps4 _ hostOps4_writes h

/-- The references `hostOps6` writes. -/
abbrev hostOps6_W : List (Ref sig .tc) := [main_c_15, main_v76, main_v77, main_c_16, main_v78, main_v79, main_v80, main_v81, main_v82, main_v83, main_v84, main_cst_17, main_v85, main_v86, main_v87, main_v88]
theorem hostOps6_writes : (hostOps6 : List (HloOp τ sig (Elt Ideal))).Forall fun op => op.writes ⊆ ((hostOps6_W).map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A buffer `hostOps6` does not write keeps its contents. -/
theorem hostOps6_kept (r : Ref sig .tc) (h : r ∉ hostOps6_W) : StableHlo.after hostOps6 U (Proc.devRef .tc r) = U (Proc.devRef .tc r) :=
  StableHlo.after_of_writes_sub hostOps6 _ hostOps6_writes h

/-! ## The index lists and the normalisation -/

/-- All edges' sources, then the nodes themselves (the self loops). -/
theorem hostOps0_src : StableHlo.after hostOps0 U (Proc.devRef .tc main_v5) = Cert.Graph.sources (U (Proc.devRef .tc main_arg1)) := by
  after_results
  rfl
/-- All edges' targets, then the nodes themselves. -/
theorem hostOps0_dst : StableHlo.after hostOps0 U (Proc.devRef .tc main_v6) = Cert.Graph.targets (U (Proc.devRef .tc main_arg1)) := by
  after_results
  rfl
/-- Where the in-degree is positive. -/
theorem hostOps0_pos : StableHlo.after hostOps0 U (Proc.devRef .tc main_v12) = Cert.Graph.positive (U (Proc.devRef .tc main_arg1)) := by
  after_results
  rfl
/-- One over the square root of the in-degree. -/
theorem hostOps0_rsqrt : StableHlo.after hostOps0 U (Proc.devRef .tc main_v13) = Cert.Graph.recipSqrt (U (Proc.devRef .tc main_arg1)) := by
  after_results
  rfl
/-- The zero that replaces it where the degree is not positive. -/
theorem hostOps0_zero : StableHlo.after hostOps0 U (Proc.devRef .tc main_cst_2) = Cert.Graph.zeroScalar := by
  after_results
  rfl

/-- `dinv`: the reciprocal square root where the degree is positive, zero elsewhere.  (The selection is a module-local
    function; its operations carry their operands through transports along the buffers' type equations, each the
    identity.) -/
theorem hostOps0_1_dinv (e : Cert.Graph.Edges)
    (h12 : U (Proc.devRef .tc main_v12) = Cert.Graph.positive e) (h13 : U (Proc.devRef .tc main_v13) = Cert.Graph.recipSqrt e)
    (h2 : U (Proc.devRef .tc main_cst_2) = Cert.Graph.zeroScalar) :
    StableHlo.after hostOps0_1 U (Proc.devRef .tc main_v14) = Cert.Graph.dinv e := by
  after_results_simp
  rw [h12, h13, h2]
  have c12 : ∀ v, (TRef.of (sig := sig) (T := ⟨S80000, .i1⟩) main_v12).ofBuf (Val := Elt Ideal) v = v := fun v => cast_eq _ _
  have c13 : ∀ v, (TRef.of (sig := sig) (T := ⟨S80000, .f32⟩) main_v13).ofBuf (Val := Elt Ideal) v = v := fun v => cast_eq _ _
  have c2 : ∀ v, (TRef.of (sig := sig) (T := ⟨S_, .f32⟩) main_cst_2).ofBuf (Val := Elt Ideal) v = v := fun v => cast_eq _ _
  have c14 : ∀ v, (TRef.of (sig := sig) (T := ⟨S80000, .f32⟩) main_v14).toBuf (Val := Elt Ideal) v = v := fun v => cast_eq _ _
  rw [c12, c13, c2, c14]
  rfl

/-- The column of edge normalisations `dinv (source) · dinv (target)`. -/
theorem hostOps0_2_norm (e : Cert.Graph.Edges)
    (h14 : U (Proc.devRef .tc main_v14) = Cert.Graph.dinv e)
    (h5 : U (Proc.devRef .tc main_v5) = Cert.Graph.sources e) (h6 : U (Proc.devRef .tc main_v6) = Cert.Graph.targets e) :
    StableHlo.after hostOps0_2 U (Proc.devRef .tc main_v30) = Cert.Graph.normCol e := by
  after_results_simp
  rw [h14, h5, h6]
  rfl

/-! ## The aggregations -/

/-- The aggregation stretch before the next launch: from the edge lists, the normalisation column and the table `h`
    it leaves `Â · h`. -/
theorem hostOps1_agg (e : Cert.Graph.Edges) (h : Cert.Graph.Feat)
    (h5 : U (Proc.devRef .tc main_v5) = Cert.Graph.sources e) (h6 : U (Proc.devRef .tc main_v6) = Cert.Graph.targets e)
    (h30 : U (Proc.devRef .tc main_v30) = Cert.Graph.normCol e) (ht : U (Proc.devRef .tc main_v31) = h) :
    StableHlo.after hostOps1 U (Proc.devRef .tc main_v43) = Cert.Graph.aggregate e h := by
  after_results_simp
  rw [h5, h6, h30, ht]
  rfl

/-- The stretch also lays the bias vector out as a row. -/
theorem hostOps1_row_main_v44 : StableHlo.after hostOps1 U (Proc.devRef .tc main_v44) = Cert.Graph.row (U (Proc.devRef .tc main_arg4)) := by
  after_results
  rfl

/-- The aggregation stretch before the next launch: from the edge lists, the normalisation column and the table `h`
    it leaves `Â · h`. -/
theorem hostOps3_agg (e : Cert.Graph.Edges) (h : Cert.Graph.Feat)
    (h5 : U (Proc.devRef .tc main_v5) = Cert.Graph.sources e) (h6 : U (Proc.devRef .tc main_v6) = Cert.Graph.targets e)
    (h30 : U (Proc.devRef .tc main_v30) = Cert.Graph.normCol e) (ht : U (Proc.devRef .tc main_v46) = h) :
    StableHlo.after hostOps3 U (Proc.devRef .tc main_v58) = Cert.Graph.aggregate e h := by
  after_results_simp
  rw [h5, h6, h30, ht]
  rfl

/-- The aggregation stretch before the next launch: from the edge lists, the normalisation column and the table `h`
    it leaves `Â · h`. -/
theorem hostOps4_agg (e : Cert.Graph.Edges) (h : Cert.Graph.Feat)
    (h5 : U (Proc.devRef .tc main_v5) = Cert.Graph.sources e) (h6 : U (Proc.devRef .tc main_v6) = Cert.Graph.targets e)
    (h30 : U (Proc.devRef .tc main_v30) = Cert.Graph.normCol e) (ht : U (Proc.devRef .tc main_v59) = h) :
    StableHlo.after hostOps4 U (Proc.devRef .tc main_v71) = Cert.Graph.aggregate e h := by
  after_results_simp
  rw [h5, h6, h30, ht]
  rfl

/-- The stretch also lays the bias vector out as a row. -/
theorem hostOps4_row_main_v72 : StableHlo.after hostOps4 U (Proc.devRef .tc main_v72) = Cert.Graph.row (U (Proc.devRef .tc main_arg6)) := by
  after_results
  rfl

/-- The stretch also lays the bias vector out as a row. -/
theorem hostOps4_row_main_v73 : StableHlo.after hostOps4 U (Proc.devRef .tc main_v73) = Cert.Graph.row (U (Proc.devRef .tc main_arg8)) := by
  after_results
  rfl

/-- The aggregation stretch before the next launch: from the edge lists, the normalisation column and the table `h`
    it leaves `Â · h`. -/
theorem hostOps6_agg (e : Cert.Graph.Edges) (h : Cert.Graph.Feat)
    (h5 : U (Proc.devRef .tc main_v5) = Cert.Graph.sources e) (h6 : U (Proc.devRef .tc main_v6) = Cert.Graph.targets e)
    (h30 : U (Proc.devRef .tc main_v30) = Cert.Graph.normCol e) (ht : U (Proc.devRef .tc main_v75) = h) :
    StableHlo.after hostOps6 U (Proc.devRef .tc main_v87) = Cert.Graph.aggregate e h := by
  after_results_simp
  rw [h5, h6, h30, ht]
  rfl

/-- The stretch also lays the bias vector out as a row. -/
theorem hostOps6_row_main_v88 : StableHlo.after hostOps6 U (Proc.devRef .tc main_v88) = Cert.Graph.row (U (Proc.devRef .tc main_arg4)) := by
  after_results
  rfl

end Cert.KernelIdeal.Stretch

end
-- ==== Proof.Project0.lean ====
/-
  Region 0: the product of the node features with a 128 × 128 weight matrix, computed in 20 blocks of 4000 rows.

  At grid point `t` the body reads rows `4000 t … 4000 t + 3999` of the feature array and the whole weight matrix,
  multiplies them (a change of float format is the identity over the extended reals, and a matrix product into a zero
  accumulator is the plain sum `∑ k, x (p, k) · w (k, q)`) and writes the result back as the same rows of the output.
  So what point `t` writes back is block `t` of `project x w`; the 20 blocks cover all 80000 rows; hence the output
  array ends as `project x w` of the two arrays as the region finds them.
-/
import proofs.«173282_j33715493273730_1_alg».proof.Proof.Gen.KernelIdeal.Frame
import proofs.«173282_j33715493273730_1_alg».proof.Proof.LibPlainDot
import proofs.«173282_j33715493273730_1_alg».proof.Proof.LibDenseLayers
import Idealize.ShloMosaic.Lib.Pipeline.Value
import Idealize.ShloMosaic.Lib.ValueIdx
import Idealize.ShloMosaic.PureOps.Ideal.Laws

set_option maxRecDepth 16384

noncomputable section

namespace Cert.KernelIdeal.Project0

open Idealize.ShloMosaic Idealize.ShloMosaic.TcCoe Idealize.ShloMosaic.ValueIdx Idealize.SL.Sem
open Cert.KernelIdeal Cert.KernelIdeal.Gen Cert.Layers

variable (V : (c : Dev nD) → (b : Ref sig .tc) → Buf (Elt Ideal) ((c : Thread nD τ).loc b))

theorem hz : (![0, 0] : Fin 2 → Nat) = fun _ => 0 := funext fun a => by fin_cases a <;> rfl

/-- The body's product at an entry of the block: the plain sum over the 128 contracted features. -/
theorem pay_apply (x0 : Vec Ideal S4000x128 .f32) (x1 : Vec Ideal S128x128 .f32) (p : Fin 4000) (q : Fin 128) :
    k0_pay1 x0 x1 (ix2 p q) = ∑ k : Fin 128, x0 (ix2 p k) * x1 (ix2 k q) := by
  unfold k0_pay1
  refine (Cert.Lib.matmul_plain_zero_apply (M := 4000) (K := 128) (N := 128) (φ₁ := .bf16) (φ₂ := .bf16) none _ _ p q).trans ?_
  rfl

/-- The index maps over the grid: the feature window and the output window are at block row `t`, column block 0; the
    weight window is the whole matrix at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t`, read at `(p, k)`: row `4000 t + p` of the feature array — the row the output
    block's entry `(p, q)` lies in —, column `k`. -/
theorem blk0_apply (c : Dev nD) (t : Fin cfg0.N) (p : Fin 4000) (q : Fin 128) (k : Fin 128) :
    iblk0 V c 0 t (ix2 p k) = V c main_arg0 (ix2 ((((cfg0.win 2).blk t).view.emb (ix2 p q)) 0) k) := by
  obtain ⟨e0, e1, e2, e3, e4, e5⟩ := idx_facts t
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 128 + 1 * k.val = k.val; omega
  exact congrArg (V c main_arg0) h0

/-- The weight block at every point is the whole matrix: read at `(k, q)` it is the matrix at `(k, q)`, `q` being also
    the column of the output block's entry in the output array. -/
theorem blk1_apply (c : Dev nD) (t : Fin cfg0.N) (p : Fin 4000) (q : Fin 128) (k : Fin 128) :
    iblk0 V c 1 t (ix2 k q) = V c main_arg3 (ix2 k ((((cfg0.win 2).blk t).view.emb (ix2 p q)) 1)) := by
  obtain ⟨e0, e1, e2, e3, e4, e5⟩ := idx_facts t
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact congrArg (V c main_arg3) h1

/-- What point `t` writes back is block `t` of the product of the two arrays as the region finds them. -/
theorem flushed_eq (c : Dev nD) (t : Fin cfg0.N) :
    (dat0 V c).flushed 2 t
      = ((cfg0.win 2).blk t).view.read (Elt Ideal) (project (M := 80000) (K := 128) (N := 128) (V c main_arg0) (V c main_arg3)) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x128) hz]
  funext j
  obtain ⟨p, q, rfl⟩ : ∃ (p : Fin 4000) (q : Fin 128), j = ix2 p q := ⟨j 0, j 1, eq_ix2 j⟩
  show k0_pay1 (iblk0 V c 0 t) (iblk0 V c 1 t) (ix2 p q)
    = project (M := 80000) (K := 128) (N := 128) (V c main_arg0) (V c main_arg3) (((cfg0.win 2).blk t).view.emb (ix2 p q))
  rw [pay_apply]
  simp only [blk0_apply V c t p q, blk1_apply V c t p q]
  rfl

/-- An index of the output array is in point `t`'s block iff each coordinate is in the block's range on its axis. -/
theorem mem_blk (t : Fin cfg0.N) (i : S80000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v31).slice (win0_2.rect t)).set ↔ _
  rw [View.set_slice_whole, Rect.mem_set_unit]
  exact Iff.rfl

/-- Row `r` of the output is in the block of point `r / 4000`: the blocks cover the array. -/
theorem cover (i : S80000x128.Idx) : ∃ t : Fin cfg0.N, (cfg0.win 2).flush t = true ∧ i ∈ ((cfg0.win 2).blk t).view.set := by
  have hi0 : (i 0).val < 80000 := (i 0).isLt
  have hi1 : (i 1).val < 128 := (i 1).isLt
  have hN : cfg0.N = 20 := N_0
  have ht : (i 0).val / 4000 < cfg0.N := by rw [hN]; omega
  obtain ⟨e0, e1, e2, e3, e4, e5⟩ := idx_facts ⟨(i 0).val / 4000, ht⟩
  refine ⟨⟨(i 0).val / 4000, ht⟩, flush0_2 _, ?_⟩
  rw [mem_blk]
  intro a
  match a with
  | ⟨0, _⟩ =>
    show win0_2.index ⟨(i 0).val / 4000, ht⟩ (0 : Fin 2) * 4000 ≤ (i 0).val
      ∧ (i 0).val < win0_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win0_2.index ⟨(i 0).val / 4000, ht⟩ (1 : Fin 2) * 128 ≤ (i 1).val
      ∧ (i 1).val < win0_2.index ⟨(i 0).val / 4000, ht⟩ (1 : Fin 2) * 128 + 128
    rw [e5]; omega

/-- The output array after the region: the product of the two arrays as the region finds them. -/
theorem final (c : Dev nD) :
    (dat0 V c).arrAt 2 cfg0.N = project (M := 80000) (K := 128) (N := 128) (V c main_arg0) (V c main_arg3) :=
  (dat0 V c).arrAt_eq_of_cover 2 _ (fun t _ => flushed_eq V c t) (cover)

end Cert.KernelIdeal.Project0

end
-- ==== Proof.Project2.lean ====
/-
  Region 2: the product of the node features with a 128 × 128 weight matrix, computed in 20 blocks of 4000 rows.

  At grid point `t` the body reads rows `4000 t … 4000 t + 3999` of the feature array and the whole weight matrix,
  multiplies them (a change of float format is the identity over the extended reals, and a matrix product into a zero
  accumulator is the plain sum `∑ k, x (p, k) · w (k, q)`) and writes the result back as the same rows of the output.
  So what point `t` writes back is block `t` of `project x w`; the 20 blocks cover all 80000 rows; hence the output
  array ends as `project x w` of the two arrays as the region finds them.
-/
import proofs.«173282_j33715493273730_1_alg».proof.Proof.Gen.KernelIdeal.Frame
import proofs.«173282_j33715493273730_1_alg».proof.Proof.LibPlainDot
import proofs.«173282_j33715493273730_1_alg».proof.Proof.LibDenseLayers
import Idealize.ShloMosaic.Lib.Pipeline.Value
import Idealize.ShloMosaic.Lib.ValueIdx
import Idealize.ShloMosaic.PureOps.Ideal.Laws

set_option maxRecDepth 16384

noncomputable section

namespace Cert.KernelIdeal.Project2

open Idealize.ShloMosaic Idealize.ShloMosaic.TcCoe Idealize.ShloMosaic.ValueIdx Idealize.SL.Sem
open Cert.KernelIdeal Cert.KernelIdeal.Gen Cert.Layers

variable (V : (c : Dev nD) → (b : Ref sig .tc) → Buf (Elt Ideal) ((c : Thread nD τ).loc b))

theorem hz : (![0, 0] : Fin 2 → Nat) = fun _ => 0 := funext fun a => by fin_cases a <;> rfl

/-- The body's product at an entry of the block: the plain sum over the 128 contracted features. -/
theorem pay_apply (x0 : Vec Ideal S4000x128 .f32) (x1 : Vec Ideal S128x128 .f32) (p : Fin 4000) (q : Fin 128) :
    k2_pay1 x0 x1 (ix2 p q) = ∑ k : Fin 128, x0 (ix2 p k) * x1 (ix2 k q) := by
  unfold k2_pay1
  refine (Cert.Lib.matmul_plain_zero_apply (M := 4000) (K := 128) (N := 128) (φ₁ := .bf16) (φ₂ := .bf16) none _ _ p q).trans ?_
  rw [shapeCast_self]
  rfl

/-- The index maps over the grid: the feature window and the output window are at block row `t`, column block 0; the
    weight window is the whole matrix at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature block at point `t`, read at `(p, k)`: row `4000 t + p` of the feature array — the row the output
    block's entry `(p, q)` lies in —, column `k`. -/
theorem blk0_apply (c : Dev nD) (t : Fin cfg2.N) (p : Fin 4000) (q : Fin 128) (k : Fin 128) :
    iblk2 V c 0 t (ix2 p k) = V c main_v45 (ix2 ((((cfg2.win 2).blk t).view.emb (ix2 p q)) 0) k) := by
  obtain ⟨e0, e1, e2, e3, e4, e5⟩ := idx_facts t
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 4000 + 1 * p.val = win2_2.index t (0 : Fin 2) * 4000 + 1 * p.val; omega
    | ⟨1, _⟩ => show win2_0.index t (1 : Fin 2) * 128 + 1 * k.val = k.val; omega
  exact congrArg (V c main_v45) h0

/-- The weight block at every point is the whole matrix: read at `(k, q)` it is the matrix at `(k, q)`, `q` being also
    the column of the output block's entry in the output array. -/
theorem blk1_apply (c : Dev nD) (t : Fin cfg2.N) (p : Fin 4000) (q : Fin 128) (k : Fin 128) :
    iblk2 V c 1 t (ix2 k q) = V c main_arg5 (ix2 k ((((cfg2.win 2).blk t).view.emb (ix2 p q)) 1)) := by
  obtain ⟨e0, e1, e2, e3, e4, e5⟩ := idx_facts t
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  exact congrArg (V c main_arg5) h1

/-- What point `t` writes back is block `t` of the product of the two arrays as the region finds them. -/
theorem flushed_eq (c : Dev nD) (t : Fin cfg2.N) :
    (dat2 V c).flushed 2 t
      = ((cfg2.win 2).blk t).view.read (Elt Ideal) (project (M := 80000) (K := 128) (N := 128) (V c main_v45) (V c main_arg5)) := by
  show (cfg2.win 2).cut (grid2.coords t) ((dat2 V c).after 2 t) = _
  rw [after2_2]
  unfold out2_2
  rw [View.canon_unit_zero hz]
  simp only [View.ld_unit_zero (S := S4000x128) hz, View.ld_unit_zero (S := S128x128) hz]
  funext j
  obtain ⟨p, q, rfl⟩ : ∃ (p : Fin 4000) (q : Fin 128), j = ix2 p q := ⟨j 0, j 1, eq_ix2 j⟩
  show k2_pay1 (iblk2 V c 0 t) (iblk2 V c 1 t) (ix2 p q)
    = project (M := 80000) (K := 128) (N := 128) (V c main_v45) (V c main_arg5) (((cfg2.win 2).blk t).view.emb (ix2 p q))
  rw [pay_apply]
  simp only [blk0_apply V c t p q, blk1_apply V c t p q]
  rfl

/-- An index of the output array is in point `t`'s block iff each coordinate is in the block's range on its axis. -/
theorem mem_blk (t : Fin cfg2.N) (i : S80000x128.Idx) :
    i ∈ ((cfg2.win 2).blk t).view.set ↔ ∀ a : Fin 2, win2_2.index t a * S4000x128.size a ≤ (i a).val
      ∧ (i a).val < win2_2.index t a * S4000x128.size a + S4000x128.size a := by
  show i ∈ ((View.whole main_v46).slice (win2_2.rect t)).set ↔ _
  rw [View.set_slice_whole, Rect.mem_set_unit]
  exact Iff.rfl

/-- Row `r` of the output is in the block of point `r / 4000`: the blocks cover the array. -/
theorem cover (i : S80000x128.Idx) : ∃ t : Fin cfg2.N, (cfg2.win 2).flush t = true ∧ i ∈ ((cfg2.win 2).blk t).view.set := by
  have hi0 : (i 0).val < 80000 := (i 0).isLt
  have hi1 : (i 1).val < 128 := (i 1).isLt
  have hN : cfg2.N = 20 := N_2
  have ht : (i 0).val / 4000 < cfg2.N := by rw [hN]; omega
  obtain ⟨e0, e1, e2, e3, e4, e5⟩ := idx_facts ⟨(i 0).val / 4000, ht⟩
  refine ⟨⟨(i 0).val / 4000, ht⟩, flush2_2 _, ?_⟩
  rw [mem_blk]
  intro a
  match a with
  | ⟨0, _⟩ =>
    show win2_2.index ⟨(i 0).val / 4000, ht⟩ (0 : Fin 2) * 4000 ≤ (i 0).val
      ∧ (i 0).val < win2_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win2_2.index ⟨(i 0).val / 4000, ht⟩ (1 : Fin 2) * 128 ≤ (i 1).val
      ∧ (i 1).val < win2_2.index ⟨(i 0).val / 4000, ht⟩ (1 : Fin 2) * 128 + 128
    rw [e5]; omega

/-- The output array after the region: the product of the two arrays as the region finds them. -/
theorem final (c : Dev nD) :
    (dat2 V c).arrAt 2 cfg2.N = project (M := 80000) (K := 128) (N := 128) (V c main_v45) (V c main_arg5) :=
  (dat2 V c).arrAt_eq_of_cover 2 _ (fun t _ => flushed_eq V c t) (cover)

end Cert.KernelIdeal.Project2

end
-- ==== Proof.Project3.lean ====
/-
  Region 3: the product of the node features with a 128 × 128 weight matrix, computed in 20 blocks of 4000 rows.

  At grid point `t` the body reads rows `4000 t … 4000 t + 3999` of the feature array and the whole weight matrix,
  multiplies them (a change of float format is the identity over the extended reals, and a matrix product into a zero
  accumulator is the plain sum `∑ k, x (p, k) · w (k, q)`) and writes the result back as the same rows of the output.
  So what point `t` writes back is block `t` of `project x w`; the 20 blocks cover all 80000 rows; hence the output
  array ends as `project x w` of the two arrays as the region finds them.
-/
import proofs.«173282_j33715493273730_1_alg».proof.Proof.Gen.KernelIdeal.Frame
import proofs.«173282_j33715493273730_1_alg».proof.Proof.LibPlainDot
import proofs.«173282_j33715493273730_1_alg».proof.Proof.LibDenseLayers
import Idealize.ShloMosaic.Lib.Pipeline.Value
import Idealize.ShloMosaic.Lib.ValueIdx
import Idealize.ShloMosaic.PureOps.Ideal.Laws

set_option maxRecDepth 16384

noncomputable section

namespace Cert.KernelIdeal.Project3

open Idealize.ShloMosaic Idealize.ShloMosaic.TcCoe Idealize.ShloMosaic.ValueIdx Idealize.SL.Sem
open Cert.KernelIdeal Cert.KernelIdeal.Gen Cert.Layers

variable (V : (c : Dev nD) → (b : Ref sig .tc) → Buf (Elt Ideal) ((c : Thread nD τ).loc b))

theorem hz : (![0, 0] : Fin 2 → Nat) = fun _ => 0 := funext fun a => by fin_cases a <;> rfl

/-- The body's product at an entry of the block: the plain sum over the 128 contracted features. -/
theorem pay_apply (x0 : Vec Ideal S4000x128 .f32) (x1 : Vec Ideal S128x128 .f32) (p : Fin 4000) (q : Fin 128) :
    k3_pay1 x0 x1 (ix2 p q) = ∑ k : Fin 128, x0 (ix2 p k) * x1 (ix2 k q) := by
  unfold k3_pay1
  refine (Cert.Lib.matmul_plain_zero_apply (M := 4000) (K := 128) (N := 128) (φ₁ := .bf16) (φ₂ := .bf16) none _ _ p q).trans ?_
  rw [shapeCast_self]
  rfl

/-- The index maps over the grid: the feature window and the output window are at block row `t`, column block 0; the
    weight window is the whole matrix at every point. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The feature block at point `t`, read at `(p, k)`: row `4000 t + p` of the feature array — the row the output
    block's entry `(p, q)` lies in —, column `k`. -/
theorem blk0_apply (c : Dev nD) (t : Fin cfg3.N) (p : Fin 4000) (q : Fin 128) (k : Fin 128) :
    iblk3 V c 0 t (ix2 p k) = V c main_v45 (ix2 ((((cfg3.win 2).blk t).view.emb (ix2 p q)) 0) k) := by
  obtain ⟨e0, e1, e2, e3, e4, e5⟩ := idx_facts t
  have h0 : ((cfg3.win 0).blk t).view.emb (ix2 p k) = ix2 ((((cfg3.win 2).blk t).view.emb (ix2 p q)) 0) k := by
    funext a; apply Fin.ext
    match a with
    | ⟨0, _⟩ => show win3_0.index t (0 : Fin 2) * 4000 + 1 * p.val = win3_2.index t (0 : Fin 2) * 4000 + 1 * p.val; omega
    | ⟨1, _⟩ => show win3_0.index t (1 : Fin 2) * 128 + 1 * k.val = k.val; omega
  exact congrArg (V c main_v45) h0

/-- The weight block at every point is the whole matrix: read at `(k, q)` it is the matrix at `(k, q)`, `q` being also
    the column of the output block's entry in the output array. -/
theorem blk1_apply (c : Dev nD) (t : Fin cfg3.N) (p : Fin 4000) (q : Fin 128) (k : Fin 128) :
    iblk3 V c 1 t (ix2 k q) = V c main_arg7 (ix2 k ((((cfg3.win 2).blk t).view.emb (ix2 p q)) 1)) := by
  obtain ⟨e0, e1, e2, e3, e4, e5⟩ := idx_facts t
  have h1 : ((cfg3.win 1).blk t).view.emb (ix2 k q) = ix2 k ((((cfg3.win 2).blk t).view.emb (ix2 p q)) 1) := by
    funext a; apply Fin.ext
    match a with
    | ⟨0, _⟩ => show win3_1.index t (0 : Fin 2) * 128 + 1 * k.val = k.val; omega
    | ⟨1, _⟩ => show win3_1.index t (1 : Fin 2) * 128 + 1 * q.val = win3_2.index t (1 : Fin 2) * 128 + 1 * q.val; omega
  exact congrArg (V c main_arg7) h1

/-- What point `t` writes back is block `t` of the product of the two arrays as the region finds them. -/
theorem flushed_eq (c : Dev nD) (t : Fin cfg3.N) :
    (dat3 V c).flushed 2 t
      = ((cfg3.win 2).blk t).view.read (Elt Ideal) (project (M := 80000) (K := 128) (N := 128) (V c main_v45) (V c main_arg7)) := by
  show (cfg3.win 2).cut (grid3.coords t) ((dat3 V c).after 2 t) = _
  rw [after3_2]
  unfold out3_2
  rw [View.canon_unit_zero hz]
  simp only [View.ld_unit_zero (S := S4000x128) hz, View.ld_unit_zero (S := S128x128) hz]
  funext j
  obtain ⟨p, q, rfl⟩ : ∃ (p : Fin 4000) (q : Fin 128), j = ix2 p q := ⟨j 0, j 1, eq_ix2 j⟩
  show k3_pay1 (iblk3 V c 0 t) (iblk3 V c 1 t) (ix2 p q)
    = project (M := 80000) (K := 128) (N := 128) (V c main_v45) (V c main_arg7) (((cfg3.win 2).blk t).view.emb (ix2 p q))
  rw [pay_apply]
  simp only [blk0_apply V c t p q, blk1_apply V c t p q]
  rfl

/-- An index of the output array is in point `t`'s block iff each coordinate is in the block's range on its axis. -/
theorem mem_blk (t : Fin cfg3.N) (i : S80000x128.Idx) :
    i ∈ ((cfg3.win 2).blk t).view.set ↔ ∀ a : Fin 2, win3_2.index t a * S4000x128.size a ≤ (i a).val
      ∧ (i a).val < win3_2.index t a * S4000x128.size a + S4000x128.size a := by
  show i ∈ ((View.whole main_v59).slice (win3_2.rect t)).set ↔ _
  rw [View.set_slice_whole, Rect.mem_set_unit]
  exact Iff.rfl

/-- Row `r` of the output is in the block of point `r / 4000`: the blocks cover the array. -/
theorem cover (i : S80000x128.Idx) : ∃ t : Fin cfg3.N, (cfg3.win 2).flush t = true ∧ i ∈ ((cfg3.win 2).blk t).view.set := by
  have hi0 : (i 0).val < 80000 := (i 0).isLt
  have hi1 : (i 1).val < 128 := (i 1).isLt
  have hN : cfg3.N = 20 := N_3
  have ht : (i 0).val / 4000 < cfg3.N := by rw [hN]; omega
  obtain ⟨e0, e1, e2, e3, e4, e5⟩ := idx_facts ⟨(i 0).val / 4000, ht⟩
  refine ⟨⟨(i 0).val / 4000, ht⟩, flush3_2 _, ?_⟩
  rw [mem_blk]
  intro a
  match a with
  | ⟨0, _⟩ =>
    show win3_2.index ⟨(i 0).val / 4000, ht⟩ (0 : Fin 2) * 4000 ≤ (i 0).val
      ∧ (i 0).val < win3_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win3_2.index ⟨(i 0).val / 4000, ht⟩ (1 : Fin 2) * 128 ≤ (i 1).val
      ∧ (i 1).val < win3_2.index ⟨(i 0).val / 4000, ht⟩ (1 : Fin 2) * 128 + 128
    rw [e5]; omega

/-- The output array after the region: the product of the two arrays as the region finds them. -/
theorem final (c : Dev nD) :
    (dat3 V c).arrAt 2 cfg3.N = project (M := 80000) (K := 128) (N := 128) (V c main_v45) (V c main_arg7) :=
  (dat3 V c).arrAt_eq_of_cover 2 _ (fun t _ => flushed_eq V c t) (cover)

end Cert.KernelIdeal.Project3

end
-- ==== Proof.Project5.lean ====
/-
  Region 5: the product of the node features with a 128 × 128 weight matrix, computed in 20 blocks of 4000 rows.

  At grid point `t` the body reads rows `4000 t … 4000 t + 3999` of the feature array and the whole weight matrix,
  multiplies them (a change of float format is the identity over the extended reals, and a matrix product into a zero
  accumulator is the plain sum `∑ k, x (p, k) · w (k, q)`) and writes the result back as the same rows of the output.
  So what point `t` writes back is block `t` of `project x w`; the 20 blocks cover all 80000 rows; hence the output
  array ends as `project x w` of the two arrays as the region finds them.
-/
import proofs.«173282_j33715493273730_1_alg».proof.Proof.Gen.KernelIdeal.Frame
import proofs.«173282_j33715493273730_1_alg».proof.Proof.LibPlainDot
import proofs.«173282_j33715493273730_1_alg».proof.Proof.LibDenseLayers
import Idealize.ShloMosaic.Lib.Pipeline.Value
import Idealize.ShloMosaic.Lib.ValueIdx
import Idealize.ShloMosaic.PureOps.Ideal.Laws

set_option maxRecDepth 16384

noncomputable section

namespace Cert.KernelIdeal.Project5

open Idealize.ShloMosaic Idealize.ShloMosaic.TcCoe Idealize.ShloMosaic.ValueIdx Idealize.SL.Sem
open Cert.KernelIdeal Cert.KernelIdeal.Gen Cert.Layers

variable (V : (c : Dev nD) → (b : Ref sig .tc) → Buf (Elt Ideal) ((c : Thread nD τ).loc b))

theorem hz : (![0, 0] : Fin 2 → Nat) = fun _ => 0 := funext fun a => by fin_cases a <;> rfl

/-- The body's product at an entry of the block: the plain sum over the 128 contracted features. -/
theorem pay_apply (x0 : Vec Ideal S4000x128 .f32) (x1 : Vec Ideal S128x128 .f32) (p : Fin 4000) (q : Fin 128) :
    k5_pay1 x0 x1 (ix2 p q) = ∑ k : Fin 128, x0 (ix2 p k) * x1 (ix2 k q) := by
  unfold k5_pay1
  refine (Cert.Lib.matmul_plain_zero_apply (M := 4000) (K := 128) (N := 128) (φ₁ := .bf16) (φ₂ := .bf16) none _ _ p q).trans ?_
  rw [shapeCast_self]
  rfl

/-- The index maps over the grid: the feature window and the output window are at block row `t`, column block 0; the
    weight window is the whole matrix at every point. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The feature block at point `t`, read at `(p, k)`: row `4000 t + p` of the feature array — the row the output
    block's entry `(p, q)` lies in —, column `k`. -/
theorem blk0_apply (c : Dev nD) (t : Fin cfg5.N) (p : Fin 4000) (q : Fin 128) (k : Fin 128) :
    iblk5 V c 0 t (ix2 p k) = V c main_v74_0 (ix2 ((((cfg5.win 2).blk t).view.emb (ix2 p q)) 0) k) := by
  obtain ⟨e0, e1, e2, e3, e4, e5⟩ := idx_facts t
  have h0 : ((cfg5.win 0).blk t).view.emb (ix2 p k) = ix2 ((((cfg5.win 2).blk t).view.emb (ix2 p q)) 0) k := by
    funext a; apply Fin.ext
    match a with
    | ⟨0, _⟩ => show win5_0.index t (0 : Fin 2) * 4000 + 1 * p.val = win5_2.index t (0 : Fin 2) * 4000 + 1 * p.val; omega
    | ⟨1, _⟩ => show win5_0.index t (1 : Fin 2) * 128 + 1 * k.val = k.val; omega
  exact congrArg (V c main_v74_0) h0

/-- The weight block at every point is the whole matrix: read at `(k, q)` it is the matrix at `(k, q)`, `q` being also
    the column of the output block's entry in the output array. -/
theorem blk1_apply (c : Dev nD) (t : Fin cfg5.N) (p : Fin 4000) (q : Fin 128) (k : Fin 128) :
    iblk5 V c 1 t (ix2 k q) = V c main_arg3 (ix2 k ((((cfg5.win 2).blk t).view.emb (ix2 p q)) 1)) := by
  obtain ⟨e0, e1, e2, e3, e4, e5⟩ := idx_facts t
  have h1 : ((cfg5.win 1).blk t).view.emb (ix2 k q) = ix2 k ((((cfg5.win 2).blk t).view.emb (ix2 p q)) 1) := by
    funext a; apply Fin.ext
    match a with
    | ⟨0, _⟩ => show win5_1.index t (0 : Fin 2) * 128 + 1 * k.val = k.val; omega
    | ⟨1, _⟩ => show win5_1.index t (1 : Fin 2) * 128 + 1 * q.val = win5_2.index t (1 : Fin 2) * 128 + 1 * q.val; omega
  exact congrArg (V c main_arg3) h1

/-- What point `t` writes back is block `t` of the product of the two arrays as the region finds them. -/
theorem flushed_eq (c : Dev nD) (t : Fin cfg5.N) :
    (dat5 V c).flushed 2 t
      = ((cfg5.win 2).blk t).view.read (Elt Ideal) (project (M := 80000) (K := 128) (N := 128) (V c main_v74_0) (V c main_arg3)) := by
  show (cfg5.win 2).cut (grid5.coords t) ((dat5 V c).after 2 t) = _
  rw [after5_2]
  unfold out5_2
  rw [View.canon_unit_zero hz]
  simp only [View.ld_unit_zero (S := S4000x128) hz, View.ld_unit_zero (S := S128x128) hz]
  funext j
  obtain ⟨p, q, rfl⟩ : ∃ (p : Fin 4000) (q : Fin 128), j = ix2 p q := ⟨j 0, j 1, eq_ix2 j⟩
  show k5_pay1 (iblk5 V c 0 t) (iblk5 V c 1 t) (ix2 p q)
    = project (M := 80000) (K := 128) (N := 128) (V c main_v74_0) (V c main_arg3) (((cfg5.win 2).blk t).view.emb (ix2 p q))
  rw [pay_apply]
  simp only [blk0_apply V c t p q, blk1_apply V c t p q]
  rfl

/-- An index of the output array is in point `t`'s block iff each coordinate is in the block's range on its axis. -/
theorem mem_blk (t : Fin cfg5.N) (i : S80000x128.Idx) :
    i ∈ ((cfg5.win 2).blk t).view.set ↔ ∀ a : Fin 2, win5_2.index t a * S4000x128.size a ≤ (i a).val
      ∧ (i a).val < win5_2.index t a * S4000x128.size a + S4000x128.size a := by
  show i ∈ ((View.whole main_v75).slice (win5_2.rect t)).set ↔ _
  rw [View.set_slice_whole, Rect.mem_set_unit]
  exact Iff.rfl

/-- Row `r` of the output is in the block of point `r / 4000`: the blocks cover the array. -/
theorem cover (i : S80000x128.Idx) : ∃ t : Fin cfg5.N, (cfg5.win 2).flush t = true ∧ i ∈ ((cfg5.win 2).blk t).view.set := by
  have hi0 : (i 0).val < 80000 := (i 0).isLt
  have hi1 : (i 1).val < 128 := (i 1).isLt
  have hN : cfg5.N = 20 := N_5
  have ht : (i 0).val / 4000 < cfg5.N := by rw [hN]; omega
  obtain ⟨e0, e1, e2, e3, e4, e5⟩ := idx_facts ⟨(i 0).val / 4000, ht⟩
  refine ⟨⟨(i 0).val / 4000, ht⟩, flush5_2 _, ?_⟩
  rw [mem_blk]
  intro a
  match a with
  | ⟨0, _⟩ =>
    show win5_2.index ⟨(i 0).val / 4000, ht⟩ (0 : Fin 2) * 4000 ≤ (i 0).val
      ∧ (i 0).val < win5_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win5_2.index ⟨(i 0).val / 4000, ht⟩ (1 : Fin 2) * 128 ≤ (i 1).val
      ∧ (i 1).val < win5_2.index ⟨(i 0).val / 4000, ht⟩ (1 : Fin 2) * 128 + 128
    rw [e5]; omega

/-- The output array after the region: the product of the two arrays as the region finds them. -/
theorem final (c : Dev nD) :
    (dat5 V c).arrAt 2 cfg5.N = project (M := 80000) (K := 128) (N := 128) (V c main_v74_0) (V c main_arg3) :=
  (dat5 V c).arrAt_eq_of_cover 2 _ (fun t _ => flushed_eq V c t) (cover)

end Cert.KernelIdeal.Project5

end
-- ==== Proof.Clamp1.lean ====
/-
  Region 1: the bias row added to every node's feature row, then the clamp at zero, computed in 20 blocks of 4000 rows.

  At grid point `t` the body reads rows `4000 t … 4000 t + 3999` of the feature array and the whole bias row `[1, 128]`.
  Entry `(p, q)` of what it stores is `max (x (p, q) + b (0, q)) 0`: it depends on the one entry `(p, q)` of the
  block and on entry `q` of the bias row, nothing else (a reshape to the same shape is the identity, the row broadcast
  over the 4000 rows reads the row's entry `q`, and the float constant with all bits clear is the real `0`).  The block
  is written back as the same rows of the output.  So what point `t` writes back is block `t` of `addRowClamp x b`;
  the 20 blocks cover all 80000 rows; hence the output array ends as `addRowClamp x b` of the two arrays as the region
  finds them.
-/
import proofs.«173282_j33715493273730_1_alg».proof.Proof.Gen.KernelIdeal.Frame
import proofs.«173282_j33715493273730_1_alg».proof.Proof.LibDenseLayers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Clamp1

open Idealize.ShloMosaic Idealize.ShloMosaic.TcCoe Idealize.ShloMosaic.ValueIdx Idealize.SL.Sem
open Cert.KernelIdeal Cert.KernelIdeal.Gen Cert.Layers

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block: the entry plus the bias row's entry of the same column, clamped at 0. -/
theorem pay_apply (x0 : Vec Ideal S4000x128 .f32) (x1 : Vec Ideal S1x128 .f32) (p : Fin 4000) (q : Fin 128) :
    k1_pay1 x0 x1 (ix2 p q) = max (x0 (ix2 p q) + x1 (ix2 (0 : Fin 1) q)) 0 := by
  unfold k1_pay1
  show max (shapeCast S4000x128 x0 shapeCasts_S4000x128_S4000x128 (ix2 p q)
      + broadcastTo S4000x128 (shapeCast S1x128 x1 shapeCasts_S1x128_S1x128) broadcasts_S1x128_S4000x128 (ix2 p q))
    (Ideal.ofBits .f32 0x00000000#32) = _
  rw [shapeCast_self x0, shapeCast_self x1, Ideal.ofBits_zero_f32]
  refine congrArg (fun r => max (x0 (ix2 p q) + r) 0) ?_
  exact broadcastTo_1b_ab_apply (a := 4000) (b := 128) x1 broadcasts_S1x128_S4000x128 p q

/-- The index maps over the grid: the feature window and the output window are at block row `t`, column block 0; the
    bias window is the whole row at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry `(p, q)` of the feature block at point `t` is the array's entry at the place entry `(p, q)` of the output
    block goes to. -/
theorem blk0_apply (c : Dev nD) (t : Fin cfg1.N) (p : Fin 4000) (q : Fin 128) :
    iblk1 V c 0 t (ix2 p q) = V c main_v43 (((cfg1.win 2).blk t).view.emb (ix2 p q)) := by
  obtain ⟨e0, e1, e2, e3, e4, e5⟩ := idx_facts t
  have h0 : ((cfg1.win 0).blk t).view.emb (ix2 p q) = ((cfg1.win 2).blk t).view.emb (ix2 p q) := by
    funext a; apply Fin.ext
    match a with
    | ⟨0, _⟩ => show win1_0.index t (0 : Fin 2) * 4000 + 1 * p.val = win1_2.index t (0 : Fin 2) * 4000 + 1 * p.val; omega
    | ⟨1, _⟩ => show win1_0.index t (1 : Fin 2) * 128 + 1 * q.val = win1_2.index t (1 : Fin 2) * 128 + 1 * q.val; omega
  exact congrArg (V c main_v43) h0

/-- Entry `(0, q)` of the bias block at point `t` is the bias row's entry in that place's column. -/
theorem blk1_apply (c : Dev nD) (t : Fin cfg1.N) (p : Fin 4000) (q : Fin 128) :
    iblk1 V c 1 t (ix2 (0 : Fin 1) q)
      = V c main_v44 (ix2 (0 : Fin 1) ((((cfg1.win 2).blk t).view.emb (ix2 p q)) 1)) := by
  obtain ⟨e0, e1, e2, e3, e4, e5⟩ := idx_facts t
  have h1 : ((cfg1.win 1).blk t).view.emb (ix2 (0 : Fin 1) q)
      = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  exact congrArg (V c main_v44) h1

/-- What point `t` writes back is block `t` of the clamped biased features of the two arrays as the region finds them. -/
theorem flushed_eq (c : Dev nD) (t : Fin cfg1.N) :
    (dat1 V c).flushed 2 t
      = ((cfg1.win 2).blk t).view.read (Elt Ideal) (addRowClamp (M := 80000) (N := 128) (V c main_v43) (V c main_v44)) := by
  show (cfg1.win 2).cut (grid1.coords t) ((dat1 V c).after 2 t) = _
  rw [after1_2]
  unfold out1_2
  rw [View.canon_unit_zero hz]
  simp only [View.ld_unit_zero (S := S4000x128) hz, View.ld_unit_zero (S := S1x128) hz]
  funext j
  obtain ⟨p, q, rfl⟩ : ∃ (p : Fin 4000) (q : Fin 128), j = ix2 p q := ⟨j 0, j 1, eq_ix2 j⟩
  show k1_pay1 (iblk1 V c 0 t) (iblk1 V c 1 t) (ix2 p q)
    = addRowClamp (M := 80000) (N := 128) (V c main_v43) (V c main_v44) (((cfg1.win 2).blk t).view.emb (ix2 p q))
  rw [pay_apply, blk0_apply V c t p q, blk1_apply V c t p q]
  rfl

/-- An index of the output array is in point `t`'s block iff each coordinate is in the block's range on its axis. -/
theorem mem_blk (t : Fin cfg1.N) (i : S80000x128.Idx) :
    i ∈ ((cfg1.win 2).blk t).view.set ↔ ∀ a : Fin 2, win1_2.index t a * S4000x128.size a ≤ (i a).val
      ∧ (i a).val < win1_2.index t a * S4000x128.size a + S4000x128.size a := by
  show i ∈ ((View.whole main_v45).slice (win1_2.rect t)).set ↔ _
  rw [View.set_slice_whole, Rect.mem_set_unit]
  exact Iff.rfl

/-- Row `r` of the output is in the block of point `r / 4000`: the blocks cover the array. -/
theorem cover (i : S80000x128.Idx) : ∃ t : Fin cfg1.N, (cfg1.win 2).flush t = true ∧ i ∈ ((cfg1.win 2).blk t).view.set := by
  have hi0 : (i 0).val < 80000 := (i 0).isLt
  have hi1 : (i 1).val < 128 := (i 1).isLt
  have hN : cfg1.N = 20 := N_1
  have ht : (i 0).val / 4000 < cfg1.N := by rw [hN]; omega
  obtain ⟨e0, e1, e2, e3, e4, e5⟩ := idx_facts ⟨(i 0).val / 4000, ht⟩
  refine ⟨⟨(i 0).val / 4000, ht⟩, flush1_2 _, ?_⟩
  rw [mem_blk]
  intro a
  match a with
  | ⟨0, _⟩ =>
    show win1_2.index ⟨(i 0).val / 4000, ht⟩ (0 : Fin 2) * 4000 ≤ (i 0).val
      ∧ (i 0).val < win1_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win1_2.index ⟨(i 0).val / 4000, ht⟩ (1 : Fin 2) * 128 ≤ (i 1).val
      ∧ (i 1).val < win1_2.index ⟨(i 0).val / 4000, ht⟩ (1 : Fin 2) * 128 + 128
    rw [e5]; omega

/-- The output array after the region: the clamped biased features of the two arrays as the region finds them. -/
theorem final (c : Dev nD) :
    (dat1 V c).arrAt 2 cfg1.N = addRowClamp (M := 80000) (N := 128) (V c main_v43) (V c main_v44) :=
  (dat1 V c).arrAt_eq_of_cover 2 _ (fun t _ => flushed_eq V c t) (cover)

end Cert.KernelIdeal.Clamp1

end
-- ==== Proof.Reparam4.lean ====
/-
  Region 4: the two biased heads (mean and log-variance) and the reparameterised latent, computed in 20 blocks of 4000
  rows.

  At grid point `t` the body reads rows `4000 t … 4000 t + 3999` of three arrays — the raw mean `m`, the raw
  log-variance `l` and the noise `eps` — and two whole bias rows `[1, 128]`, `bm` and `bl`.  Entry `(p, q)` of the
  three blocks it stores:

      mean      m (p, q) + bm (0, q)
      log-var   l (p, q) + bl (0, q)
      latent    eps (p, q) · exp (½ · (l (p, q) + bl (0, q))) + (m (p, q) + bm (0, q))

  each depends on the entries `(p, q)` of the blocks and on entry `q` of the bias rows, nothing else (a reshape to the
  same shape is the identity, a row broadcast over the 4000 rows reads the row's entry `q`, a broadcast constant reads
  the constant).  Each block is written back as the same rows of its output.  So what point `t` writes back is block `t`
  of `addRow m bm`, of `addRow l bl` and of `sample eps (addRow l bl) (addRow m bm)`; the 20 blocks cover all 80000
  rows of each output; hence the three output arrays end as these functions of the five arrays as the region finds them.
-/
import proofs.«173282_j33715493273730_1_alg».proof.Proof.Gen.KernelIdeal.Frame
import proofs.«173282_j33715493273730_1_alg».proof.Proof.LibDenseLayers
import proofs.«173282_j33715493273730_1_alg».proof.Proof.GraphSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reparam4

open Idealize.ShloMosaic Idealize.ShloMosaic.TcCoe Idealize.ShloMosaic.ValueIdx Idealize.SL.Sem
open Cert.KernelIdeal Cert.KernelIdeal.Gen Cert.Layers

variable (V : (c : Dev nD) → (b : Ref sig .tc) → Buf (Elt Ideal) ((c : Thread nD τ).loc b))

theorem hz : (![0, 0] : Fin 2 → Nat) = fun _ => 0 := funext fun a => by fin_cases a <;> rfl

/-! ## The body's three values at an entry of the block -/

/-- The mean: the entry plus the bias row's entry of the same column. -/
theorem pay1_apply (x0 : Vec Ideal S4000x128 .f32) (x1 : Vec Ideal S1x128 .f32) (p : Fin 4000) (q : Fin 128) :
    k4_pay1 x0 x1 (ix2 p q) = x0 (ix2 p q) + x1 (ix2 (0 : Fin 1) q) := by
  unfold k4_pay1
  show shapeCast S4000x128 x0 shapeCasts_S4000x128_S4000x128 (ix2 p q)
      + broadcastTo S4000x128 (shapeCast S1x128 x1 shapeCasts_S1x128_S1x128) broadcasts_S1x128_S4000x128 (ix2 p q) = _
  rw [shapeCast_self x0, shapeCast_self x1]
  refine congrArg (fun r => x0 (ix2 p q) + r) ?_
  exact broadcastTo_1b_ab_apply (a := 4000) (b := 128) x1 broadcasts_S1x128_S4000x128 p q

/-- The log-variance: the same operations on the other pair of blocks. -/
theorem pay2_apply (x2 : Vec Ideal S4000x128 .f32) (x3 : Vec Ideal S1x128 .f32) (p : Fin 4000) (q : Fin 128) :
    k4_pay2 x2 x3 (ix2 p q) = x2 (ix2 p q) + x3 (ix2 (0 : Fin 1) q) := by
  unfold k4_pay2
  show shapeCast S4000x128 x2 shapeCasts_S4000x128_S4000x128 (ix2 p q)
      + broadcastTo S4000x128 (shapeCast S1x128 x3 shapeCasts_S1x128_S1x128) broadcasts_S1x128_S4000x128 (ix2 p q) = _
  rw [shapeCast_self x2, shapeCast_self x3]
  refine congrArg (fun r => x2 (ix2 p q) + r) ?_
  exact broadcastTo_1b_ab_apply (a := 4000) (b := 128) x3 broadcasts_S1x128_S4000x128 p q

/-- The latent: the noise entry times the exponential of half the log-variance entry, plus the mean entry. -/
theorem pay3_apply (x0 : Vec Ideal S4000x128 .f32) (x1 : Vec Ideal S1x128 .f32) (x2 : Vec Ideal S4000x128 .f32)
    (x3 : Vec Ideal S1x128 .f32) (x4 : Vec Ideal S4000x128 .f32) (p : Fin 4000) (q : Fin 128) :
    k4_pay3 x0 x1 x2 x3 x4 (ix2 p q)
      = FloatOps.addf (FloatOps.mulf (x4 (ix2 p q)) (FloatOps.exp (FloatOps.mulf (Ideal.ofBits .f32 0x3F000000#32)
          (x2 (ix2 p q) + x3 (ix2 (0 : Fin 1) q))))) (x0 (ix2 p q) + x1 (ix2 (0 : Fin 1) q)) := by
  unfold k4_pay3
  show FloatOps.addf (FloatOps.mulf (x4 (ix2 p q)) (FloatOps.exp (FloatOps.mulf (Ideal.ofBits .f32 0x3F000000#32)
          (k4_pay2 x2 x3 (ix2 p q))))) (k4_pay1 x0 x1 (ix2 p q)) = _
  rw [pay2_apply x2 x3 p q, pay1_apply x0 x1 p q]

/-! ## Where the blocks sit -/

/-- The index maps over the grid: the three feature windows (0, 2, 4) and the three output windows (5, 6, 7) are at
    block row `t`, column block 0; the two bias windows (1, 3) are the whole row at every point. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

/-- Entry `(p, q)` of the raw log-variance block is the array's entry that entry `(p, q)` of the raw mean block is. -/
theorem emb2 (t : Fin cfg4.N) (p : Fin 4000) (q : Fin 128) :
    ((cfg4.win 2).blk t).view.emb (ix2 p q) = ((cfg4.win 0).blk t).view.emb (ix2 p q) := by
  obtain ⟨a0, a1, -, -, c0, c1, -⟩ := idx_facts t
  funext a; apply Fin.ext
  match a with
  | ⟨0, _⟩ => show win4_2.index t (0 : Fin 2) * 4000 + 1 * p.val = win4_0.index t (0 : Fin 2) * 4000 + 1 * p.val; omega
  | ⟨1, _⟩ => show win4_2.index t (1 : Fin 2) * 128 + 1 * q.val = win4_0.index t (1 : Fin 2) * 128 + 1 * q.val; omega

/-- The same for the noise block. -/
theorem emb4 (t : Fin cfg4.N) (p : Fin 4000) (q : Fin 128) :
    ((cfg4.win 4).blk t).view.emb (ix2 p q) = ((cfg4.win 0).blk t).view.emb (ix2 p q) := by
  obtain ⟨a0, a1, -, -, -, -, -, -, g0, g1, -⟩ := idx_facts t
  funext a; apply Fin.ext
  match a with
  | ⟨0, _⟩ => show win4_4.index t (0 : Fin 2) * 4000 + 1 * p.val = win4_0.index t (0 : Fin 2) * 4000 + 1 * p.val; omega
  | ⟨1, _⟩ => show win4_4.index t (1 : Fin 2) * 128 + 1 * q.val = win4_0.index t (1 : Fin 2) * 128 + 1 * q.val; omega

/-- The same for the latent's output block, -/
theorem emb5 (t : Fin cfg4.N) (p : Fin 4000) (q : Fin 128) :
    ((cfg4.win 5).blk t).view.emb (ix2 p q) = ((cfg4.win 0).blk t).view.emb (ix2 p q) := by
  obtain ⟨a0, a1, -, -, -, -, -, -, -, -, f0, f1, -⟩ := idx_facts t
  funext a; apply Fin.ext
  match a with
  | ⟨0, _⟩ => show win4_5.index t (0 : Fin 2) * 4000 + 1 * p.val = win4_0.index t (0 : Fin 2) * 4000 + 1 * p.val; omega
  | ⟨1, _⟩ => show win4_5.index t (1 : Fin 2) * 128 + 1 * q.val = win4_0.index t (1 : Fin 2) * 128 + 1 * q.val; omega

/-- for the mean's output block, -/
theorem emb6 (t : Fin cfg4.N) (p : Fin 4000) (q : Fin 128) :
    ((cfg4.win 6).blk t).view.emb (ix2 p q) = ((cfg4.win 0).blk t).view.emb (ix2 p q) := by
  obtain ⟨a0, a1, -, -, -, -, -, -, -, -, -, -, f0, f1, -⟩ := idx_facts t
  funext a; apply Fin.ext
  match a with
  | ⟨0, _⟩ => show win4_6.index t (0 : Fin 2) * 4000 + 1 * p.val = win4_0.index t (0 : Fin 2) * 4000 + 1 * p.val; omega
  | ⟨1, _⟩ => show win4_6.index t (1 : Fin 2) * 128 + 1 * q.val = win4_0.index t (1 : Fin 2) * 128 + 1 * q.val; omega

/-- and for the log-variance's output block. -/
theorem emb7 (t : Fin cfg4.N) (p : Fin 4000) (q : Fin 128) :
    ((cfg4.win 7).blk t).view.emb (ix2 p q) = ((cfg4.win 0).blk t).view.emb (ix2 p q) := by
  obtain ⟨a0, a1, -, -, -, -, -, -, -, -, -, -, -, -, f0, f1⟩ := idx_facts t
  funext a; apply Fin.ext
  match a with
  | ⟨0, _⟩ => show win4_7.index t (0 : Fin 2) * 4000 + 1 * p.val = win4_0.index t (0 : Fin 2) * 4000 + 1 * p.val; omega
  | ⟨1, _⟩ => show win4_7.index t (1 : Fin 2) * 128 + 1 * q.val = win4_0.index t (1 : Fin 2) * 128 + 1 * q.val; omega

/-- Entry `(0, q)` of the mean's bias block is the bias row's entry in the column of entry `(p, q)` of the raw mean
    block. -/
theorem emb1 (t : Fin cfg4.N) (p : Fin 4000) (q : Fin 128) :
    ((cfg4.win 1).blk t).view.emb (ix2 (0 : Fin 1) q) = ix2 (0 : Fin 1) ((((cfg4.win 0).blk t).view.emb (ix2 p q)) 1) := by
  obtain ⟨a0, a1, b0, b1, -⟩ := idx_facts t
  funext a; apply Fin.ext
  match a with
  | ⟨0, _⟩ => show win4_1.index t (0 : Fin 2) * 1 + 1 * 0 = 0; omega
  | ⟨1, _⟩ => show win4_1.index t (1 : Fin 2) * 128 + 1 * q.val = win4_0.index t (1 : Fin 2) * 128 + 1 * q.val; omega

/-- The same for the log-variance's bias block. -/
theorem emb3 (t : Fin cfg4.N) (p : Fin 4000) (q : Fin 128) :
    ((cfg4.win 3).blk t).view.emb (ix2 (0 : Fin 1) q) = ix2 (0 : Fin 1) ((((cfg4.win 0).blk t).view.emb (ix2 p q)) 1) := by
  obtain ⟨a0, a1, -, -, -, -, d0, d1, -⟩ := idx_facts t
  funext a; apply Fin.ext
  match a with
  | ⟨0, _⟩ => show win4_3.index t (0 : Fin 2) * 1 + 1 * 0 = 0; omega
  | ⟨1, _⟩ => show win4_3.index t (1 : Fin 2) * 128 + 1 * q.val = win4_0.index t (1 : Fin 2) * 128 + 1 * q.val; omega

/-! ## The input blocks, read off their arrays at the raw mean block's places -/

theorem blk0_apply (c : Dev nD) (t : Fin cfg4.N) (p : Fin 4000) (q : Fin 128) :
    iblk4 V c 0 t (ix2 p q) = V c main_v58 (((cfg4.win 0).blk t).view.emb (ix2 p q)) := rfl

theorem blk1_apply (c : Dev nD) (t : Fin cfg4.N) (p : Fin 4000) (q : Fin 128) :
    iblk4 V c 1 t (ix2 (0 : Fin 1) q)
      = V c main_v72 (ix2 (0 : Fin 1) ((((cfg4.win 0).blk t).view.emb (ix2 p q)) 1)) :=
  congrArg (V c main_v72) (emb1 t p q)

theorem blk2_apply (c : Dev nD) (t : Fin cfg4.N) (p : Fin 4000) (q : Fin 128) :
    iblk4 V c 2 t (ix2 p q) = V c main_v71 (((cfg4.win 0).blk t).view.emb (ix2 p q)) :=
  congrArg (V c main_v71) (emb2 t p q)

theorem blk3_apply (c : Dev nD) (t : Fin cfg4.N) (p : Fin 4000) (q : Fin 128) :
    iblk4 V c 3 t (ix2 (0 : Fin 1) q)
      = V c main_v73 (ix2 (0 : Fin 1) ((((cfg4.win 0).blk t).view.emb (ix2 p q)) 1)) :=
  congrArg (V c main_v73) (emb3 t p q)

theorem blk4_apply (c : Dev nD) (t : Fin cfg4.N) (p : Fin 4000) (q : Fin 128) :
    iblk4 V c 4 t (ix2 p q) = V c main_arg2 (((cfg4.win 0).blk t).view.emb (ix2 p q)) :=
  congrArg (V c main_arg2) (emb4 t p q)

/-! ## What point `t` writes back -/

/-- The mean's block at point `t` is block `t` of the biased raw mean. -/
theorem flushed_mu (c : Dev nD) (t : Fin cfg4.N) :
    (dat4 V c).flushed 6 t
      = ((cfg4.win 6).blk t).view.read (Elt Ideal) (addRow (M := 80000) (N := 128) (V c main_v58) (V c main_v72)) := by
  show (cfg4.win 6).cut (grid4.coords t) ((dat4 V c).after 6 t) = _
  rw [after4_6]
  unfold out4_6
  rw [View.canon_unit_zero hz]
  simp only [View.ld_unit_zero (S := S4000x128) hz, View.ld_unit_zero (S := S1x128) hz]
  funext j
  obtain ⟨p, q, rfl⟩ : ∃ (p : Fin 4000) (q : Fin 128), j = ix2 p q := ⟨j 0, j 1, eq_ix2 j⟩
  show k4_pay1 (iblk4 V c 0 t) (iblk4 V c 1 t) (ix2 p q)
    = addRow (M := 80000) (N := 128) (V c main_v58) (V c main_v72) (((cfg4.win 6).blk t).view.emb (ix2 p q))
  rw [pay1_apply, emb6 t p q, blk0_apply V c t p q, blk1_apply V c t p q]
  rfl

/-- The log-variance's block at point `t` is block `t` of the biased raw log-variance. -/
theorem flushed_logvar (c : Dev nD) (t : Fin cfg4.N) :
    (dat4 V c).flushed 7 t
      = ((cfg4.win 7).blk t).view.read (Elt Ideal) (addRow (M := 80000) (N := 128) (V c main_v71) (V c main_v73)) := by
  show (cfg4.win 7).cut (grid4.coords t) ((dat4 V c).after 7 t) = _
  rw [after4_7]
  unfold out4_7
  rw [View.canon_unit_zero hz]
  simp only [View.ld_unit_zero (S := S4000x128) hz, View.ld_unit_zero (S := S1x128) hz]
  funext j
  obtain ⟨p, q, rfl⟩ : ∃ (p : Fin 4000) (q : Fin 128), j = ix2 p q := ⟨j 0, j 1, eq_ix2 j⟩
  show k4_pay2 (iblk4 V c 2 t) (iblk4 V c 3 t) (ix2 p q)
    = addRow (M := 80000) (N := 128) (V c main_v71) (V c main_v73) (((cfg4.win 7).blk t).view.emb (ix2 p q))
  rw [pay2_apply, emb7 t p q, blk2_apply V c t p q, blk3_apply V c t p q]
  rfl

/-- The latent's block at point `t` is block `t` of the sample drawn from the noise, the biased raw log-variance and
    the biased raw mean. -/
theorem flushed_z (c : Dev nD) (t : Fin cfg4.N) :
    (dat4 V c).flushed 5 t
      = ((cfg4.win 5).blk t).view.read (Elt Ideal)
          (Cert.Graph.sample (V c main_arg2) (addRow (M := 80000) (N := 128) (V c main_v71) (V c main_v73))
            (addRow (M := 80000) (N := 128) (V c main_v58) (V c main_v72))) := by
  show (cfg4.win 5).cut (grid4.coords t) ((dat4 V c).after 5 t) = _
  rw [after4_5]
  unfold out4_5
  rw [View.canon_unit_zero hz]
  simp only [View.ld_unit_zero (S := S4000x128) hz, View.ld_unit_zero (S := S1x128) hz]
  funext j
  obtain ⟨p, q, rfl⟩ : ∃ (p : Fin 4000) (q : Fin 128), j = ix2 p q := ⟨j 0, j 1, eq_ix2 j⟩
  show k4_pay3 (iblk4 V c 0 t) (iblk4 V c 1 t) (iblk4 V c 2 t) (iblk4 V c 3 t) (iblk4 V c 4 t) (ix2 p q)
    = Cert.Graph.sample (V c main_arg2) (addRow (M := 80000) (N := 128) (V c main_v71) (V c main_v73))
        (addRow (M := 80000) (N := 128) (V c main_v58) (V c main_v72)) (((cfg4.win 5).blk t).view.emb (ix2 p q))
  rw [pay3_apply, emb5 t p q, blk0_apply V c t p q, blk1_apply V c t p q, blk2_apply V c t p q, blk3_apply V c t p q,
    blk4_apply V c t p q]
  rfl

/-! ## The blocks cover each output -/

/-- An index of the latent's array is in point `t`'s block iff each coordinate is in the block's range on its axis. -/
theorem mem_blk5 (t : Fin cfg4.N) (i : S80000x128.Idx) :
    i ∈ ((cfg4.win 5).blk t).view.set ↔ ∀ a : Fin 2, win4_5.index t a * S4000x128.size a ≤ (i a).val
      ∧ (i a).val < win4_5.index t a * S4000x128.size a + S4000x128.size a := by
  show i ∈ ((View.whole main_v74_0).slice (win4_5.rect t)).set ↔ _
  rw [View.set_slice_whole, Rect.mem_set_unit]
  exact Iff.rfl

/-- The same for the mean's array, -/
theorem mem_blk6 (t : Fin cfg4.N) (i : S80000x128.Idx) :
    i ∈ ((cfg4.win 6).blk t).view.set ↔ ∀ a : Fin 2, win4_6.index t a * S4000x128.size a ≤ (i a).val
      ∧ (i a).val < win4_6.index t a * S4000x128.size a + S4000x128.size a := by
  show i ∈ ((View.whole main_v74_1).slice (win4_6.rect t)).set ↔ _
  rw [View.set_slice_whole, Rect.mem_set_unit]
  exact Iff.rfl

/-- and for the log-variance's array. -/
theorem mem_blk7 (t : Fin cfg4.N) (i : S80000x128.Idx) :
    i ∈ ((cfg4.win 7).blk t).view.set ↔ ∀ a : Fin 2, win4_7.index t a * S4000x128.size a ≤ (i a).val
      ∧ (i a).val < win4_7.index t a * S4000x128.size a + S4000x128.size a := by
  show i ∈ ((View.whole main_v74_2).slice (win4_7.rect t)).set ↔ _
  rw [View.set_slice_whole, Rect.mem_set_unit]
  exact Iff.rfl

/-- Row `r` of the latent's array is in the block of point `r / 4000`: the blocks cover the array. -/
theorem cover5 (i : S80000x128.Idx) : ∃ t : Fin cfg4.N, (cfg4.win 5).flush t = true ∧ i ∈ ((cfg4.win 5).blk t).view.set := by
  have hi0 : (i 0).val < 80000 := (i 0).isLt
  have hi1 : (i 1).val < 128 := (i 1).isLt
  have hN : cfg4.N = 20 := N_4
  have ht : (i 0).val / 4000 < cfg4.N := by rw [hN]; omega
  obtain ⟨-, -, -, -, -, -, -, -, -, -, f0, f1, -⟩ := idx_facts ⟨(i 0).val / 4000, ht⟩
  refine ⟨⟨(i 0).val / 4000, ht⟩, flush4_5 _, ?_⟩
  rw [mem_blk5]
  intro a
  match a with
  | ⟨0, _⟩ =>
    show win4_5.index ⟨(i 0).val / 4000, ht⟩ (0 : Fin 2) * 4000 ≤ (i 0).val
      ∧ (i 0).val < win4_5.index ⟨(i 0).val / 4000, ht⟩ (0 : Fin 2) * 4000 + 4000
    rw [f0]; show (i 0).val / 4000 * 4000 ≤ (i 0).val ∧ (i 0).val < (i 0).val / 4000 * 4000 + 4000; omega
  | ⟨1, _⟩ =>
    show win4_5.index ⟨(i 0).val / 4000, ht⟩ (1 : Fin 2) * 128 ≤ (i 1).val
      ∧ (i 1).val < win4_5.index ⟨(i 0).val / 4000, ht⟩ (1 : Fin 2) * 128 + 128
    rw [f1]; omega

/-- The same for the mean's array, -/
theorem cover6 (i : S80000x128.Idx) : ∃ t : Fin cfg4.N, (cfg4.win 6).flush t = true ∧ i ∈ ((cfg4.win 6).blk t).view.set := by
  have hi0 : (i 0).val < 80000 := (i 0).isLt
  have hi1 : (i 1).val < 128 := (i 1).isLt
  have hN : cfg4.N = 20 := N_4
  have ht : (i 0).val / 4000 < cfg4.N := by rw [hN]; omega
  obtain ⟨-, -, -, -, -, -, -, -, -, -, -, -, f0, f1, -⟩ := idx_facts ⟨(i 0).val / 4000, ht⟩
  refine ⟨⟨(i 0).val / 4000, ht⟩, flush4_6 _, ?_⟩
  rw [mem_blk6]
  intro a
  match a with
  | ⟨0, _⟩ =>
    show win4_6.index ⟨(i 0).val / 4000, ht⟩ (0 : Fin 2) * 4000 ≤ (i 0).val
      ∧ (i 0).val < win4_6.index ⟨(i 0).val / 4000, ht⟩ (0 : Fin 2) * 4000 + 4000
    rw [f0]; show (i 0).val / 4000 * 4000 ≤ (i 0).val ∧ (i 0).val < (i 0).val / 4000 * 4000 + 4000; omega
  | ⟨1, _⟩ =>
    show win4_6.index ⟨(i 0).val / 4000, ht⟩ (1 : Fin 2) * 128 ≤ (i 1).val
      ∧ (i 1).val < win4_6.index ⟨(i 0).val / 4000, ht⟩ (1 : Fin 2) * 128 + 128
    rw [f1]; omega

/-- and for the log-variance's array. -/
theorem cover7 (i : S80000x128.Idx) : ∃ t : Fin cfg4.N, (cfg4.win 7).flush t = true ∧ i ∈ ((cfg4.win 7).blk t).view.set := by
  have hi0 : (i 0).val < 80000 := (i 0).isLt
  have hi1 : (i 1).val < 128 := (i 1).isLt
  have hN : cfg4.N = 20 := N_4
  have ht : (i 0).val / 4000 < cfg4.N := by rw [hN]; omega
  obtain ⟨-, -, -, -, -, -, -, -, -, -, -, -, -, -, f0, f1⟩ := idx_facts ⟨(i 0).val / 4000, ht⟩
  refine ⟨⟨(i 0).val / 4000, ht⟩, flush4_7 _, ?_⟩
  rw [mem_blk7]
  intro a
  match a with
  | ⟨0, _⟩ =>
    show win4_7.index ⟨(i 0).val / 4000, ht⟩ (0 : Fin 2) * 4000 ≤ (i 0).val
      ∧ (i 0).val < win4_7.index ⟨(i 0).val / 4000, ht⟩ (0 : Fin 2) * 4000 + 4000
    rw [f0]; show (i 0).val / 4000 * 4000 ≤ (i 0).val ∧ (i 0).val < (i 0).val / 4000 * 4000 + 4000; omega
  | ⟨1, _⟩ =>
    show win4_7.index ⟨(i 0).val / 4000, ht⟩ (1 : Fin 2) * 128 ≤ (i 1).val
      ∧ (i 1).val < win4_7.index ⟨(i 0).val / 4000, ht⟩ (1 : Fin 2) * 128 + 128
    rw [f1]; omega

/-! ## The three output arrays after the region -/

/-- The mean: the raw mean plus its bias row, of the arrays as the region finds them. -/
theorem final_mu (c : Dev nD) :
    (dat4 V c).arrAt 6 cfg4.N = addRow (M := 80000) (N := 128) (V c main_v58) (V c main_v72) :=
  (dat4 V c).arrAt_eq_of_cover 6 _ (fun t _ => flushed_mu V c t) (cover6)

/-- The log-variance: the raw log-variance plus its bias row. -/
theorem final_logvar (c : Dev nD) :
    (dat4 V c).arrAt 7 cfg4.N = addRow (M := 80000) (N := 128) (V c main_v71) (V c main_v73) :=
  (dat4 V c).arrAt_eq_of_cover 7 _ (fun t _ => flushed_logvar V c t) (cover7)

/-- The latent: the sample drawn from the noise, the log-variance and the mean. -/
theorem final_z (c : Dev nD) :
    (dat4 V c).arrAt 5 cfg4.N
      = Cert.Graph.sample (V c main_arg2) (addRow (M := 80000) (N := 128) (V c main_v71) (V c main_v73))
          (addRow (M := 80000) (N := 128) (V c main_v58) (V c main_v72)) :=
  (dat4 V c).arrAt_eq_of_cover 5 _ (fun t _ => flushed_z V c t) (cover5)

end Cert.KernelIdeal.Reparam4

end
-- ==== Proof.Squash6.lean ====
/-
  Region 6: the bias row added to every node's feature row, then the logistic function entry by entry, computed in 20
  blocks of 4000 rows.

  At grid point `t` the body reads rows `4000 t … 4000 t + 3999` of the feature array and the whole bias row `[1, 128]`.
  Entry `(p, q)` of what it stores is `logistic (x (p, q) + b (0, q))`: it depends on the one entry `(p, q)` of the
  block and on entry `q` of the bias row, nothing else (a reshape to the same shape is the identity, and the row
  broadcast over the 4000 rows reads the row's entry `q`).  The block is written back as the same rows of the output.
  So what point `t` writes back is block `t` of `squash (addRow x b)`; the 20 blocks cover all 80000 rows; hence the
  output array ends as `squash (addRow x b)` of the two arrays as the region finds them.
-/
import proofs.«173282_j33715493273730_1_alg».proof.Proof.Gen.KernelIdeal.Frame
import proofs.«173282_j33715493273730_1_alg».proof.Proof.LibDenseLayers
import proofs.«173282_j33715493273730_1_alg».proof.Proof.GraphSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Squash6

open Idealize.ShloMosaic Idealize.ShloMosaic.TcCoe Idealize.ShloMosaic.ValueIdx Idealize.SL.Sem
open Cert.KernelIdeal Cert.KernelIdeal.Gen Cert.Layers

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block: the logistic function of the entry plus the bias row's entry of the
    same column. -/
theorem pay_apply (x0 : Vec Ideal S4000x128 .f32) (x1 : Vec Ideal S1x128 .f32) (p : Fin 4000) (q : Fin 128) :
    k6_pay1 x0 x1 (ix2 p q) = FloatOps.logistic (F := Ideal) (φ := .f32) (x0 (ix2 p q) + x1 (ix2 (0 : Fin 1) q)) := by
  unfold k6_pay1
  show FloatOps.logistic (F := Ideal) (φ := .f32) (shapeCast S4000x128 x0 shapeCasts_S4000x128_S4000x128 (ix2 p q)
      + broadcastTo S4000x128 (shapeCast S1x128 x1 shapeCasts_S1x128_S1x128) broadcasts_S1x128_S4000x128 (ix2 p q)) = _
  rw [shapeCast_self x0, shapeCast_self x1]
  refine congrArg (fun r => FloatOps.logistic (F := Ideal) (φ := .f32) (x0 (ix2 p q) + r)) ?_
  exact broadcastTo_1b_ab_apply (a := 4000) (b := 128) x1 broadcasts_S1x128_S4000x128 p q

/-- The index maps over the grid: the feature window and the output window are at block row `t`, column block 0; the
    bias window is the whole row at every point. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Entry `(p, q)` of the feature block at point `t` is the array's entry at the place entry `(p, q)` of the output
    block goes to. -/
theorem blk0_apply (c : Dev nD) (t : Fin cfg6.N) (p : Fin 4000) (q : Fin 128) :
    iblk6 V c 0 t (ix2 p q) = V c main_v87 (((cfg6.win 2).blk t).view.emb (ix2 p q)) := by
  obtain ⟨e0, e1, e2, e3, e4, e5⟩ := idx_facts t
  have h0 : ((cfg6.win 0).blk t).view.emb (ix2 p q) = ((cfg6.win 2).blk t).view.emb (ix2 p q) := by
    funext a; apply Fin.ext
    match a with
    | ⟨0, _⟩ => show win6_0.index t (0 : Fin 2) * 4000 + 1 * p.val = win6_2.index t (0 : Fin 2) * 4000 + 1 * p.val; omega
    | ⟨1, _⟩ => show win6_0.index t (1 : Fin 2) * 128 + 1 * q.val = win6_2.index t (1 : Fin 2) * 128 + 1 * q.val; omega
  exact congrArg (V c main_v87) h0

/-- Entry `(0, q)` of the bias block at point `t` is the bias row's entry in that place's column. -/
theorem blk1_apply (c : Dev nD) (t : Fin cfg6.N) (p : Fin 4000) (q : Fin 128) :
    iblk6 V c 1 t (ix2 (0 : Fin 1) q)
      = V c main_v88 (ix2 (0 : Fin 1) ((((cfg6.win 2).blk t).view.emb (ix2 p q)) 1)) := by
  obtain ⟨e0, e1, e2, e3, e4, e5⟩ := idx_facts t
  have h1 : ((cfg6.win 1).blk t).view.emb (ix2 (0 : Fin 1) q)
      = ix2 (0 : Fin 1) ((((cfg6.win 2).blk t).view.emb (ix2 p q)) 1) := by
    funext a; apply Fin.ext
    match a with
    | ⟨0, _⟩ => show win6_1.index t (0 : Fin 2) * 1 + 1 * 0 = 0; omega
    | ⟨1, _⟩ => show win6_1.index t (1 : Fin 2) * 128 + 1 * q.val = win6_2.index t (1 : Fin 2) * 128 + 1 * q.val; omega
  exact congrArg (V c main_v88) h1

/-- What point `t` writes back is block `t` of the logistic function of the biased features of the two arrays as the
    region finds them. -/
theorem flushed_eq (c : Dev nD) (t : Fin cfg6.N) :
    (dat6 V c).flushed 2 t
      = ((cfg6.win 2).blk t).view.read (Elt Ideal)
          (Cert.Graph.squash (addRow (M := 80000) (N := 128) (V c main_v87) (V c main_v88))) := by
  show (cfg6.win 2).cut (grid6.coords t) ((dat6 V c).after 2 t) = _
  rw [after6_2]
  unfold out6_2
  rw [View.canon_unit_zero hz]
  simp only [View.ld_unit_zero (S := S4000x128) hz, View.ld_unit_zero (S := S1x128) hz]
  funext j
  obtain ⟨p, q, rfl⟩ : ∃ (p : Fin 4000) (q : Fin 128), j = ix2 p q := ⟨j 0, j 1, eq_ix2 j⟩
  show k6_pay1 (iblk6 V c 0 t) (iblk6 V c 1 t) (ix2 p q)
    = Cert.Graph.squash (addRow (M := 80000) (N := 128) (V c main_v87) (V c main_v88))
        (((cfg6.win 2).blk t).view.emb (ix2 p q))
  rw [pay_apply, blk0_apply V c t p q, blk1_apply V c t p q]
  rfl

/-- An index of the output array is in point `t`'s block iff each coordinate is in the block's range on its axis. -/
theorem mem_blk (t : Fin cfg6.N) (i : S80000x128.Idx) :
    i ∈ ((cfg6.win 2).blk t).view.set ↔ ∀ a : Fin 2, win6_2.index t a * S4000x128.size a ≤ (i a).val
      ∧ (i a).val < win6_2.index t a * S4000x128.size a + S4000x128.size a := by
  show i ∈ ((View.whole main_v89).slice (win6_2.rect t)).set ↔ _
  rw [View.set_slice_whole, Rect.mem_set_unit]
  exact Iff.rfl

/-- Row `r` of the output is in the block of point `r / 4000`: the blocks cover the array. -/
theorem cover (i : S80000x128.Idx) : ∃ t : Fin cfg6.N, (cfg6.win 2).flush t = true ∧ i ∈ ((cfg6.win 2).blk t).view.set := by
  have hi0 : (i 0).val < 80000 := (i 0).isLt
  have hi1 : (i 1).val < 128 := (i 1).isLt
  have hN : cfg6.N = 20 := N_6
  have ht : (i 0).val / 4000 < cfg6.N := by rw [hN]; omega
  obtain ⟨e0, e1, e2, e3, e4, e5⟩ := idx_facts ⟨(i 0).val / 4000, ht⟩
  refine ⟨⟨(i 0).val / 4000, ht⟩, flush6_2 _, ?_⟩
  rw [mem_blk]
  intro a
  match a with
  | ⟨0, _⟩ =>
    show win6_2.index ⟨(i 0).val / 4000, ht⟩ (0 : Fin 2) * 4000 ≤ (i 0).val
      ∧ (i 0).val < win6_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win6_2.index ⟨(i 0).val / 4000, ht⟩ (1 : Fin 2) * 128 ≤ (i 1).val
      ∧ (i 1).val < win6_2.index ⟨(i 0).val / 4000, ht⟩ (1 : Fin 2) * 128 + 128
    rw [e5]; omega

/-- The output array after the region: the logistic function of the biased features of the two arrays as the region
    finds them. -/
theorem final (c : Dev nD) :
    (dat6 V c).arrAt 2 cfg6.N = Cert.Graph.squash (addRow (M := 80000) (N := 128) (V c main_v87) (V c main_v88)) :=
  (dat6 V c).arrAt_eq_of_cover 2 _ (fun t _ => flushed_eq V c t) (cover)

end Cert.KernelIdeal.Squash6

end
-- ==== Proof.FoldWalk.lean ====
/-
  The idealized kernel's fold, walked from the launch to the return.

  `W0 … W14` are the buffer contents at the boundaries of the program's fourteen segments.  Walking forward:

    W3   the edge lists with self loops and the normalisation column (from the edge list alone);
    W4   x · W1                                  (launch 0)
    W5   Â (x W1), and b1 as a row               (stretch)
    W6   H = max (Â (x W1) + b1) 0               (launch 1)
    W7   H · Wmu                                 (launch 2)
    W8   Â (H Wmu)                               (stretch)
    W9   H · Wlv                                 (launch 3)
    W10  Â (H Wlv), bmu and blv as rows          (stretch)
    W11  mu, logvar and z = eps · exp (logvar / 2) + mu     (launch 4)
    W12  z · W1                                  (launch 5)
    W13  Â (z W1), b1 as a row                   (stretch)
    W14  the logistic of Â (z W1) + b1           (launch 6)

  A launch replaces its output arrays by the closed form of its blocks and leaves every buffer that is none of its
  arrays alone (an input array is read and left as it was); a stretch replaces what it writes by its operations'
  results and leaves the rest alone.  So each fact above needs, besides the segment's own lemma, that the buffers it
  reads still hold what an earlier segment left there: the edge lists, the normalisation column and the arguments are
  never written after boundary 3 (`idle…`), and the four values that outlive a segment (H across launch 2 and the next
  stretch, Â (H Wmu) across launch 3 and a stretch, mu and logvar to the return, W1 across launch 0) are carried by hand.
-/
import proofs.«173282_j33715493273730_1_alg».proof.Proof.Gen.KernelIdeal.Frame
import proofs.«173282_j33715493273730_1_alg».proof.Proof.GraphSpec
import proofs.«173282_j33715493273730_1_alg».proof.Proof.Stretches
import proofs.«173282_j33715493273730_1_alg».proof.Proof.Project0
import proofs.«173282_j33715493273730_1_alg».proof.Proof.Project2
import proofs.«173282_j33715493273730_1_alg».proof.Proof.Project3
import proofs.«173282_j33715493273730_1_alg».proof.Proof.Project5
import proofs.«173282_j33715493273730_1_alg».proof.Proof.Clamp1
import proofs.«173282_j33715493273730_1_alg».proof.Proof.Reparam4
import proofs.«173282_j33715493273730_1_alg».proof.Proof.Squash6

set_option maxRecDepth 16384

noncomputable section

namespace Cert.KernelIdeal.Walk

open Idealize.ShloMosaic Idealize.ShloMosaic.TcCoe Idealize.SL.Sem
open Cert.KernelIdeal Cert.KernelIdeal.Gen Cert.Graph Cert.Layers

variable (m : (ℓ : Loc nD τ sig) → Buf (Elt Ideal) ℓ) (ρ : Dev nD → PrngReg) (c : Dev nD)

/-! ## The arguments, by their roles -/

abbrev xIn : Feat := m ((c.tc : Thread nD τ).loc main_arg0)
abbrev eIn : Edges := m ((c.tc : Thread nD τ).loc main_arg1)
abbrev epsIn : Feat := m ((c.tc : Thread nD τ).loc main_arg2)
abbrev w1In : Weights := m ((c.tc : Thread nD τ).loc main_arg3)
abbrev b1In : Bias := m ((c.tc : Thread nD τ).loc main_arg4)
abbrev wmuIn : Weights := m ((c.tc : Thread nD τ).loc main_arg5)
abbrev bmuIn : Bias := m ((c.tc : Thread nD τ).loc main_arg6)
abbrev wlvIn : Weights := m ((c.tc : Thread nD τ).loc main_arg7)
abbrev blvIn : Bias := m ((c.tc : Thread nD τ).loc main_arg8)

/-- The hidden layer, the two heads and the latent sample, of the arguments. -/
abbrev hid : Feat := hidden (eIn m c) (xIn m c) (w1In m c) (b1In m c)
abbrev mean : Feat := conv (eIn m c) (hid m c) (wmuIn m c) (bmuIn m c)
abbrev logvar : Feat := conv (eIn m c) (hid m c) (wlvIn m c) (blvIn m c)
abbrev latent : Feat := sample (epsIn m c) (logvar m c) (mean m c)

/-! ## Buffers nothing touches -/

/-- Through the first three stretches: a buffer none of them writes holds its launch contents. -/
theorem idle3 (b : Ref sig .tc) (h : b ∉ Stretch.hostOps0_W ++ Stretch.hostOps0_1_W ++ Stretch.hostOps0_2_W) :
    W3 m ρ c (Proc.devRef .tc b) = m ((c.tc : Thread nD τ).loc b) :=
  (Stretch.hostOps0_2_kept (W2 m ρ c) b (fun hb => h (List.mem_append_right _ hb))).trans
    ((Stretch.hostOps0_1_kept (W1 m ρ c) b (fun hb => h (List.mem_append_left _ (List.mem_append_right _ hb)))).trans
      (Stretch.hostOps0_kept (W0 m ρ c) b (fun hb => h (List.mem_append_left _ (List.mem_append_left _ hb)))))

/-! From boundary 3 on: `T k` lists what a segment up to boundary `k` touches (a stretch's written buffers, a
    launch's arrays); a buffer outside it holds at boundary `k` what it held at boundary 3. -/
abbrev T4 : List (Ref sig .tc) := [main_arg0, main_arg3, main_v31]
theorem idle4 (b : Ref sig .tc) (h : b ∉ T4) : W4 m ρ c (Proc.devRef .tc b) = W3 m ρ c (Proc.devRef .tc b) :=
  (W4_of_ne m ρ c b fun w e => h (e ▸ (show ∀ w, Pipeline.arrRef spec0 w ∈ ([main_arg0, main_arg3, main_v31] : List (Ref sig .tc)) from by decide) w))
abbrev T5 : List (Ref sig .tc) := T4 ++ Stretch.hostOps1_W
theorem idle5 (b : Ref sig .tc) (h : b ∉ T5) : W5 m ρ c (Proc.devRef .tc b) = W3 m ρ c (Proc.devRef .tc b) :=
  (Stretch.hostOps1_kept (W4 m ρ c) b (fun hb => h (List.mem_append_right _ hb))).trans (idle4 m ρ c b (fun hb => h (List.mem_append_left _ hb)))
abbrev T6 : List (Ref sig .tc) := T5 ++ [main_v43, main_v44, main_v45]
theorem idle6 (b : Ref sig .tc) (h : b ∉ T6) : W6 m ρ c (Proc.devRef .tc b) = W3 m ρ c (Proc.devRef .tc b) :=
  (W6_of_ne m ρ c b fun w e => h (List.mem_append_right _ (e ▸ (show ∀ w, Pipeline.arrRef spec1 w ∈ ([main_v43, main_v44, main_v45] : List (Ref sig .tc)) from by decide) w))).trans (idle5 m ρ c b (fun hb => h (List.mem_append_left _ hb)))
abbrev T7 : List (Ref sig .tc) := T6 ++ [main_v45, main_arg5, main_v46]
theorem idle7 (b : Ref sig .tc) (h : b ∉ T7) : W7 m ρ c (Proc.devRef .tc b) = W3 m ρ c (Proc.devRef .tc b) :=
  (W7_of_ne m ρ c b fun w e => h (List.mem_append_right _ (e ▸ (show ∀ w, Pipeline.arrRef spec2 w ∈ ([main_v45, main_arg5, main_v46] : List (Ref sig .tc)) from by decide) w))).trans (idle6 m ρ c b (fun hb => h (List.mem_append_left _ hb)))
abbrev T8 : List (Ref sig .tc) := T7 ++ Stretch.hostOps3_W
theorem idle8 (b : Ref sig .tc) (h : b ∉ T8) : W8 m ρ c (Proc.devRef .tc b) = W3 m ρ c (Proc.devRef .tc b) :=
  (Stretch.hostOps3_kept (W7 m ρ c) b (fun hb => h (List.mem_append_right _ hb))).trans (idle7 m ρ c b (fun hb => h (List.mem_append_left _ hb)))
abbrev T9 : List (Ref sig .tc) := T8 ++ [main_v45, main_arg7, main_v59]
theorem idle9 (b : Ref sig .tc) (h : b ∉ T9) : W9 m ρ c (Proc.devRef .tc b) = W3 m ρ c (Proc.devRef .tc b) :=
  (W9_of_ne m ρ c b fun w e => h (List.mem_append_right _ (e ▸ (show ∀ w, Pipeline.arrRef spec3 w ∈ ([main_v45, main_arg7, main_v59] : List (Ref sig .tc)) from by decide) w))).trans (idle8 m ρ c b (fun hb => h (List.mem_append_left _ hb)))
abbrev T10 : List (Ref sig .tc) := T9 ++ Stretch.hostOps4_W
theorem idle10 (b : Ref sig .tc) (h : b ∉ T10) : W10 m ρ c (Proc.devRef .tc b) = W3 m ρ c (Proc.devRef .tc b) :=
  (Stretch.hostOps4_kept (W9 m ρ c) b (fun hb => h (List.mem_append_right _ hb))).trans (idle9 m ρ c b (fun hb => h (List.mem_append_left _ hb)))
abbrev T11 : List (Ref sig .tc) := T10 ++ [main_v58, main_v72, main_v71, main_v73, main_arg2, main_v74_0, main_v74_1, main_v74_2]
theorem idle11 (b : Ref sig .tc) (h : b ∉ T11) : W11 m ρ c (Proc.devRef .tc b) = W3 m ρ c (Proc.devRef .tc b) :=
  (W11_of_ne m ρ c b fun w e => h (List.mem_append_right _ (e ▸ (show ∀ w, Pipeline.arrRef spec4 w ∈ ([main_v58, main_v72, main_v71, main_v73, main_arg2, main_v74_0, main_v74_1, main_v74_2] : List (Ref sig .tc)) from by decide) w))).trans (idle10 m ρ c b (fun hb => h (List.mem_append_left _ hb)))
abbrev T12 : List (Ref sig .tc) := T11 ++ [main_v74_0, main_arg3, main_v75]
theorem idle12 (b : Ref sig .tc) (h : b ∉ T12) : W12 m ρ c (Proc.devRef .tc b) = W3 m ρ c (Proc.devRef .tc b) :=
  (W12_of_ne m ρ c b fun w e => h (List.mem_append_right _ (e ▸ (show ∀ w, Pipeline.arrRef spec5 w ∈ ([main_v74_0, main_arg3, main_v75] : List (Ref sig .tc)) from by decide) w))).trans (idle11 m ρ c b (fun hb => h (List.mem_append_left _ hb)))

/-! ## Boundary 3: what every aggregation needs -/

theorem src1 : W1 m ρ c (Proc.devRef .tc main_v5) = sources (eIn m c) := Stretch.hostOps0_src (W0 m ρ c)
theorem dst1 : W1 m ρ c (Proc.devRef .tc main_v6) = targets (eIn m c) := Stretch.hostOps0_dst (W0 m ρ c)
theorem dinv2 : W2 m ρ c (Proc.devRef .tc main_v14) = dinv (eIn m c) :=
  Stretch.hostOps0_1_dinv (W1 m ρ c) (eIn m c) (Stretch.hostOps0_pos (W0 m ρ c)) (Stretch.hostOps0_rsqrt (W0 m ρ c)) (Stretch.hostOps0_zero (W0 m ρ c))
theorem src2 : W2 m ρ c (Proc.devRef .tc main_v5) = sources (eIn m c) :=
  (Stretch.hostOps0_1_kept (W1 m ρ c) main_v5 (by decide)).trans (src1 m ρ c)
theorem dst2 : W2 m ρ c (Proc.devRef .tc main_v6) = targets (eIn m c) :=
  (Stretch.hostOps0_1_kept (W1 m ρ c) main_v6 (by decide)).trans (dst1 m ρ c)
theorem src3 : W3 m ρ c (Proc.devRef .tc main_v5) = sources (eIn m c) :=
  (Stretch.hostOps0_2_kept (W2 m ρ c) main_v5 (by decide)).trans (src2 m ρ c)
theorem dst3 : W3 m ρ c (Proc.devRef .tc main_v6) = targets (eIn m c) :=
  (Stretch.hostOps0_2_kept (W2 m ρ c) main_v6 (by decide)).trans (dst2 m ρ c)
theorem norm3 : W3 m ρ c (Proc.devRef .tc main_v30) = normCol (eIn m c) :=
  Stretch.hostOps0_2_norm (W2 m ρ c) (eIn m c) (dinv2 m ρ c) (src2 m ρ c) (dst2 m ρ c)

/-! ## Launch 0 and the first aggregation -/

theorem proj4 : W4 m ρ c (Proc.devRef .tc main_v31) = project (M := 80000) (K := 128) (N := 128) (xIn m c) (w1In m c) :=
  (W4_arr m ρ c 2).trans ((Project0.final (V3 m ρ) c).trans
    (congrArg₂ (project (M := 80000) (K := 128) (N := 128)) (idle3 m ρ c main_arg0 (by decide)) (idle3 m ρ c main_arg3 (by decide))))

theorem agg5 : W5 m ρ c (Proc.devRef .tc main_v43) = aggregate (eIn m c) (project (M := 80000) (K := 128) (N := 128) (xIn m c) (w1In m c)) :=
  Stretch.hostOps1_agg (W4 m ρ c) (eIn m c) _ ((idle4 m ρ c main_v5 (by decide)).trans (src3 m ρ c))
    ((idle4 m ρ c main_v6 (by decide)).trans (dst3 m ρ c)) ((idle4 m ρ c main_v30 (by decide)).trans (norm3 m ρ c)) (proj4 m ρ c)

theorem row5 : W5 m ρ c (Proc.devRef .tc main_v44) = row (b1In m c) :=
  (Stretch.hostOps1_row_main_v44 (W4 m ρ c)).trans
    (congrArg row ((idle4 m ρ c main_arg4 (by decide)).trans (idle3 m ρ c main_arg4 (by decide))))

/-! ## Launch 1: the hidden layer -/

theorem hid6 : W6 m ρ c (Proc.devRef .tc main_v45) = hid m c :=
  (W6_arr m ρ c 2).trans ((Clamp1.final (V5 m ρ) c).trans
    (congrArg₂ (addRowClamp (M := 80000) (N := 128)) (agg5 m ρ c) (row5 m ρ c)))

/-! ## Launches 2 and 3 with their aggregations: the two heads before the bias -/

theorem proj7 : W7 m ρ c (Proc.devRef .tc main_v46) = project (M := 80000) (K := 128) (N := 128) (hid m c) (wmuIn m c) :=
  (W7_arr m ρ c 2).trans ((Project2.final (V6 m ρ) c).trans
    (congrArg₂ (project (M := 80000) (K := 128) (N := 128)) (hid6 m ρ c)
      ((idle6 m ρ c main_arg5 (by decide)).trans (idle3 m ρ c main_arg5 (by decide)))))

/-- Launch 2 reads the hidden layer and leaves it as it was. -/
theorem hid7 : W7 m ρ c (Proc.devRef .tc main_v45) = hid m c :=
  (W7_arr m ρ c 0).trans (((dat2 (V6 m ρ) c).arrAt_in 0 rfl _).trans ((A_eq2 (V6 m ρ) c 0).trans (hid6 m ρ c)))

theorem hid8 : W8 m ρ c (Proc.devRef .tc main_v45) = hid m c :=
  (Stretch.hostOps3_kept (W7 m ρ c) main_v45 (by decide)).trans (hid7 m ρ c)

theorem agg8 : W8 m ρ c (Proc.devRef .tc main_v58) = aggregate (eIn m c) (project (M := 80000) (K := 128) (N := 128) (hid m c) (wmuIn m c)) :=
  Stretch.hostOps3_agg (W7 m ρ c) (eIn m c) _ ((idle7 m ρ c main_v5 (by decide)).trans (src3 m ρ c))
    ((idle7 m ρ c main_v6 (by decide)).trans (dst3 m ρ c)) ((idle7 m ρ c main_v30 (by decide)).trans (norm3 m ρ c)) (proj7 m ρ c)

theorem proj9 : W9 m ρ c (Proc.devRef .tc main_v59) = project (M := 80000) (K := 128) (N := 128) (hid m c) (wlvIn m c) :=
  (W9_arr m ρ c 2).trans ((Project3.final (V8 m ρ) c).trans
    (congrArg₂ (project (M := 80000) (K := 128) (N := 128)) (hid8 m ρ c)
      ((idle8 m ρ c main_arg7 (by decide)).trans (idle3 m ρ c main_arg7 (by decide)))))

theorem agg9 : W9 m ρ c (Proc.devRef .tc main_v58) = aggregate (eIn m c) (project (M := 80000) (K := 128) (N := 128) (hid m c) (wmuIn m c)) :=
  (W9_of_ne m ρ c main_v58 (by decide)).trans (agg8 m ρ c)

theorem agg10mu : W10 m ρ c (Proc.devRef .tc main_v58) = aggregate (eIn m c) (project (M := 80000) (K := 128) (N := 128) (hid m c) (wmuIn m c)) :=
  (Stretch.hostOps4_kept (W9 m ρ c) main_v58 (by decide)).trans (agg9 m ρ c)

theorem agg10lv : W10 m ρ c (Proc.devRef .tc main_v71) = aggregate (eIn m c) (project (M := 80000) (K := 128) (N := 128) (hid m c) (wlvIn m c)) :=
  Stretch.hostOps4_agg (W9 m ρ c) (eIn m c) _ ((idle9 m ρ c main_v5 (by decide)).trans (src3 m ρ c))
    ((idle9 m ρ c main_v6 (by decide)).trans (dst3 m ρ c)) ((idle9 m ρ c main_v30 (by decide)).trans (norm3 m ρ c)) (proj9 m ρ c)

theorem row10mu : W10 m ρ c (Proc.devRef .tc main_v72) = row (bmuIn m c) :=
  (Stretch.hostOps4_row_main_v72 (W9 m ρ c)).trans
    (congrArg row ((idle9 m ρ c main_arg6 (by decide)).trans (idle3 m ρ c main_arg6 (by decide))))

theorem row10lv : W10 m ρ c (Proc.devRef .tc main_v73) = row (blvIn m c) :=
  (Stretch.hostOps4_row_main_v73 (W9 m ρ c)).trans
    (congrArg row ((idle9 m ρ c main_arg8 (by decide)).trans (idle3 m ρ c main_arg8 (by decide))))

/-! ## Launch 4: the heads and the latent sample -/

theorem mean11 : W11 m ρ c (Proc.devRef .tc main_v74_1) = mean m c :=
  (W11_arr m ρ c 6).trans ((Reparam4.final_mu (V10 m ρ) c).trans
    (congrArg₂ (addRow (M := 80000) (N := 128)) (agg10mu m ρ c) (row10mu m ρ c)))

theorem logvar11 : W11 m ρ c (Proc.devRef .tc main_v74_2) = logvar m c :=
  (W11_arr m ρ c 7).trans ((Reparam4.final_logvar (V10 m ρ) c).trans
    (congrArg₂ (addRow (M := 80000) (N := 128)) (agg10lv m ρ c) (row10lv m ρ c)))

theorem latent11 : W11 m ρ c (Proc.devRef .tc main_v74_0) = latent m c := by
  refine (W11_arr m ρ c 5).trans ((Reparam4.final_z (V10 m ρ) c).trans ?_)
  show sample (W10 m ρ c (Proc.devRef .tc main_arg2))
      (addRow (M := 80000) (N := 128) (W10 m ρ c (Proc.devRef .tc main_v71)) (W10 m ρ c (Proc.devRef .tc main_v73)))
      (addRow (M := 80000) (N := 128) (W10 m ρ c (Proc.devRef .tc main_v58)) (W10 m ρ c (Proc.devRef .tc main_v72))) = _
  rw [agg10mu m ρ c, agg10lv m ρ c, row10mu m ρ c, row10lv m ρ c,
    (idle10 m ρ c main_arg2 (by decide)).trans (idle3 m ρ c main_arg2 (by decide))]
  rfl

/-! ## Launch 5, the last aggregation, launch 6 -/

/-- The first weight matrix is still in place at boundary 11: launch 0 read it and left it as it was, and nothing
    after it touches it before launch 5. -/
theorem w1_11 : W11 m ρ c (Proc.devRef .tc main_arg3) = w1In m c :=
  (W11_of_ne m ρ c main_arg3 (by decide)).trans <|
  (Stretch.hostOps4_kept (W9 m ρ c) main_arg3 (by decide)).trans <|
  (W9_of_ne m ρ c main_arg3 (by decide)).trans <|
  (Stretch.hostOps3_kept (W7 m ρ c) main_arg3 (by decide)).trans <|
  (W7_of_ne m ρ c main_arg3 (by decide)).trans <|
  (W6_of_ne m ρ c main_arg3 (by decide)).trans <|
  (Stretch.hostOps1_kept (W4 m ρ c) main_arg3 (by decide)).trans <|
  (W4_arr m ρ c 1).trans <| ((dat0 (V3 m ρ) c).arrAt_in 1 rfl _).trans <| (A_eq0 (V3 m ρ) c 1).trans <|
  idle3 m ρ c main_arg3 (by decide)

theorem proj12 : W12 m ρ c (Proc.devRef .tc main_v75) = project (M := 80000) (K := 128) (N := 128) (latent m c) (w1In m c) :=
  (W12_arr m ρ c 2).trans ((Project5.final (V11 m ρ) c).trans
    (congrArg₂ (project (M := 80000) (K := 128) (N := 128)) (latent11 m ρ c) (w1_11 m ρ c)))

theorem agg13 : W13 m ρ c (Proc.devRef .tc main_v87) = aggregate (eIn m c) (project (M := 80000) (K := 128) (N := 128) (latent m c) (w1In m c)) :=
  Stretch.hostOps6_agg (W12 m ρ c) (eIn m c) _ ((idle12 m ρ c main_v5 (by decide)).trans (src3 m ρ c))
    ((idle12 m ρ c main_v6 (by decide)).trans (dst3 m ρ c)) ((idle12 m ρ c main_v30 (by decide)).trans (norm3 m ρ c)) (proj12 m ρ c)

theorem row13 : W13 m ρ c (Proc.devRef .tc main_v88) = row (b1In m c) :=
  (Stretch.hostOps6_row_main_v88 (W12 m ρ c)).trans
    (congrArg row ((idle12 m ρ c main_arg4 (by decide)).trans (idle3 m ρ c main_arg4 (by decide))))

/-! ## The three results at the return -/

/-- The reconstruction: the logistic of the decoder's convolution of the latent sample. -/
theorem recon14 : W14 m ρ c (Proc.devRef .tc main_v89) = squash (conv (eIn m c) (latent m c) (w1In m c) (b1In m c)) :=
  (W14_arr m ρ c 2).trans ((Squash6.final (V13 m ρ) c).trans
    (congrArg squash (congrArg₂ (addRow (M := 80000) (N := 128)) (agg13 m ρ c) (row13 m ρ c))))

/-- The mean head, untouched since launch 4. -/
theorem mean14 : W14 m ρ c (Proc.devRef .tc main_v74_1) = mean m c :=
  (W14_of_ne m ρ c main_v74_1 (by decide)).trans <|
  (Stretch.hostOps6_kept (W12 m ρ c) main_v74_1 (by decide)).trans <|
  (W12_of_ne m ρ c main_v74_1 (by decide)).trans <| mean11 m ρ c

/-- The log-variance head, untouched since launch 4. -/
theorem logvar14 : W14 m ρ c (Proc.devRef .tc main_v74_2) = logvar m c :=
  (W14_of_ne m ρ c main_v74_2 (by decide)).trans <|
  (Stretch.hostOps6_kept (W12 m ρ c) main_v74_2 (by decide)).trans <|
  (W12_of_ne m ρ c main_v74_2 (by decide)).trans <| logvar11 m ρ c

end Cert.KernelIdeal.Walk

end
-- ==== Proof.RefForms.lean ====
/-
  The reference's whole-array spelling of each layer of the graph auto-encoder is the layer.

  A plain array program writes one graph convolution `Â · (x · w) + b` as a `dot_general` with the ordinary matrix-product
  dimension numbers, the gather–scale–scatter `aggregate`, and an addition of the bias vector broadcast first to a row and
  then over all nodes; the encoder's first layer follows it by a `maximum` with a broadcast zero; the reparameterised
  latent is `eps · exp (0.5 · logvar) + mu` with the half a broadcast constant; and the logistic function is expanded
  into `1 / (1 + exp (-a))` with both ones broadcast constants.  Each of these is, index by index, the corresponding
  function of `Cert.Graph`: `conv`, `hidden`, `sample`, `squash`.  The same sums and products appear on both sides in the
  same order; the only facts about numbers are `0 + s = s` (inside the matrix product's lemma) and that the float `1.0` is
  the extended real `1`.  The aggregation `Â · h` is the same function on both sides and is never opened.
-/
import proofs.«173282_j33715493273730_1_alg».proof.Proof.GraphSpec
import Idealize.ShloMosaic.Lib.IdealHost

noncomputable section

namespace Cert.ReferenceIdeal.RefValue

open Idealize.ShloMosaic Idealize.ShloMosaic.ValueIdx Cert.ReferenceIdeal Cert.ReferenceIdeal.Gen Cert.Layers Cert.Graph

/-- The matrix product of node features with a weight matrix: entry `(n, f)` is `∑ k, a (n, k) · w (k, f)`. -/
theorem dot_eq_project (a : Feat) (w : Weights) :
    Host.dotGeneral dot_S80000x128_S128x128_S80000x128_1_0_0_1_n_n none a w
      = project (M := 80000) (K := 128) (N := 128) a w :=
  dotGeneral_eq_project _ rfl none a w

/-- One graph convolution: the bias vector, broadcast to a row and then over all nodes, is added to `Â · (x · w)` row by
    row. -/
theorem refConv_eq (e : Edges) (x : Feat) (w : Weights) (b : Bias) : refConv e x w b = conv e x w b := by
  unfold refConv conv
  rw [dot_eq_project]
  exact addf_bias_eq_addRow (M := 80000) (N := 128) _ b _ _ _

/-- The encoder's first layer: the convolution followed by the maximum with zero. -/
theorem refHidden_eq (e : Edges) (x : Feat) (w : Weights) (b : Bias) : refHidden e x w b = Cert.Graph.hidden e x w b := by
  unfold refHidden refConv Cert.Graph.hidden
  rw [dot_eq_project]
  exact maximumf_bias_eq_addRowClamp (M := 80000) (N := 128) _ b _ _ _ _

/-- The reparameterised latent, entry by entry: `eps · exp (0.5 · lv) + mu`.  The broadcast half read at an index is the
    float `0.5`, kept as its bit pattern on both sides. -/
theorem refSample_eq (eps lv mu : Feat) : refSample eps lv mu = sample eps lv mu := by
  funext i
  show FloatOps.addf (FloatOps.mulf (eps i) (FloatOps.hostUnary .exp (FloatOps.mulf
      (broadcastInDim S80000x128 ![] bcast_S_S80000x128 (constant (F := Ideal) S_ .f32 0x3F000000#32) i) (lv i)))) (mu i) = _
  rw [broadcastInDim_scalar_apply]
  rfl

/-- The expanded logistic function, entry by entry: both broadcast ones read at an index are the float `1.0`, which is
    the extended real `1`, and the logistic function is by definition the quotient `1 / (1 + exp (-a))`. -/
theorem refSquash_eq (a : Feat) : refSquash a = squash a := by
  funext i
  show FloatOps.hostDivf (broadcastInDim S80000x128 ![] bcast_S_S80000x128 (constant (F := Ideal) S_ .f32 0x3F800000#32) i)
      (FloatOps.addf (broadcastInDim S80000x128 ![] bcast_S_S80000x128 (constant (F := Ideal) S_ .f32 0x3F800000#32) i)
        (FloatOps.hostUnary .exp (FloatOps.hostNegf (a i)))) = FloatOps.logistic (a i)
  rw [broadcastInDim_scalar_apply]
  show FloatOps.hostDivf (Ideal.ofBits .f32 0x3F800000#32)
      (FloatOps.addf (Ideal.ofBits .f32 0x3F800000#32) (FloatOps.hostUnary .exp (FloatOps.hostNegf (a i)))) = FloatOps.logistic (a i)
  rw [Ideal.ofBits_one_f32]
  rfl

end Cert.ReferenceIdeal.RefValue

end
-- ==== Proof.RefLayers.lean ====
/-
  The reference program's three results as the layers of the variational graph auto-encoder.

  The reference computes, over the extended reals,

      h      = max (Â · (x · W1) + b1) 0,
      mu     = Â · (h · Wmu) + bmu,
      logvar = Â · (h · Wlv) + blv,
      z      = eps · exp (logvar / 2) + mu,
      recon  = 1 / (1 + exp (-(Â · (z · W1) + b1))),

  and each of its four graph convolutions recomputes the end points of the edges and the normalisation
  `dinv s · dinv d` from the edge list by the same operations.  The composed term of each result is therefore the same tree
  of array operations as the whole-array spelling of these layers in `Cert.Graph` (`refConv`, `refHidden`, `refSample`,
  `refSquash` over `aggregate`), and those are the index-by-index layers `conv`, `hidden`, `sample`, `squash`.
-/
import proofs.«173282_j33715493273730_1_alg».proof.Proof.RefForms
import proofs.«173282_j33715493273730_1_alg».proof.Proof.RefRun

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.Graph

/-! ## The composed terms are the whole-array layers -/

/-- The mean head's term: a convolution of the hidden features with `Wmu`, `bmu`. -/
theorem mu_ref (m : (ℓ : Loc nD τ sig) → Buf (Elt Ideal) ℓ) (c : Dev nD) :
    Cert.ReferenceIdeal.ValueP.res_main_v90 m c
      = refConv (m ((c.tc : Thread nD τ).loc main_arg1)) (refHidden (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6)) := by
  unfold Cert.ReferenceIdeal.ValueP.res_main_v90
  rfl

/-- The log-variance head's term: a convolution of the hidden features with `Wlv`, `blv`. -/
theorem logvar_ref (m : (ℓ : Loc nD τ sig) → Buf (Elt Ideal) ℓ) (c : Dev nD) :
    Cert.ReferenceIdeal.ValueP.res_main_v133 m c
      = refConv (m ((c.tc : Thread nD τ).loc main_arg1)) (refHidden (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg7)) (m ((c.tc : Thread nD τ).loc main_arg8)) := by
  unfold Cert.ReferenceIdeal.ValueP.res_main_v133
  rfl

/-- The reconstruction's term: the expanded logistic function of a convolution, with the first layer's weights, of the
    sampled latent. -/
theorem recon_ref (m : (ℓ : Loc nD τ sig) → Buf (Elt Ideal) ℓ) (c : Dev nD) :
    Cert.ReferenceIdeal.ValueP.res_main_v187 m c
      = refSquash (refConv (m ((c.tc : Thread nD τ).loc main_arg1))
          (refSample (m ((c.tc : Thread nD τ).loc main_arg2))
            (refConv (m ((c.tc : Thread nD τ).loc main_arg1)) (refHidden (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg7)) (m ((c.tc : Thread nD τ).loc main_arg8)))
            (refConv (m ((c.tc : Thread nD τ).loc main_arg1)) (refHidden (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))))
          (m ((c.tc : Thread nD τ).loc main_arg3)) (m ((c.tc : Thread nD τ).loc main_arg4))) := by
  unfold Cert.ReferenceIdeal.ValueP.res_main_v187
  rfl

/-! ## The three results -/

/-- The second result of the reference is the mean head `Â · (h · Wmu) + bmu`. -/
theorem mu_eq (m : (ℓ : Loc nD τ sig) → Buf (Elt Ideal) ℓ) (c : Dev nD) :
    Cert.ReferenceIdeal.ValueP.res_main_v90 m c
      = conv (m ((c.tc : Thread nD τ).loc main_arg1)) (Cert.Graph.hidden (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6)) :=
  (mu_ref m c).trans (by rw [refConv_eq, refHidden_eq])

/-- The third result of the reference is the log-variance head `Â · (h · Wlv) + blv`. -/
theorem logvar_eq (m : (ℓ : Loc nD τ sig) → Buf (Elt Ideal) ℓ) (c : Dev nD) :
    Cert.ReferenceIdeal.ValueP.res_main_v133 m c
      = conv (m ((c.tc : Thread nD τ).loc main_arg1)) (Cert.Graph.hidden (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg7)) (m ((c.tc : Thread nD τ).loc main_arg8)) :=
  (logvar_ref m c).trans (by rw [refConv_eq, refHidden_eq])

/-- The first result of the reference is the reconstruction: the decoder applied to the sampled latent. -/
theorem recon_eq (m : (ℓ : Loc nD τ sig) → Buf (Elt Ideal) ℓ) (c : Dev nD) :
    Cert.ReferenceIdeal.ValueP.res_main_v187 m c
      = squash (conv (m ((c.tc : Thread nD τ).loc main_arg1))
          (sample (m ((c.tc : Thread nD τ).loc main_arg2))
            (conv (m ((c.tc : Thread nD τ).loc main_arg1)) (Cert.Graph.hidden (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg7)) (m ((c.tc : Thread nD τ).loc main_arg8)))
            (conv (m ((c.tc : Thread nD τ).loc main_arg1)) (Cert.Graph.hidden (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))))
          (m ((c.tc : Thread nD τ).loc main_arg3)) (m ((c.tc : Thread nD τ).loc main_arg4))) :=
  (recon_ref m c).trans (by simp only [refSquash_eq, refConv_eq, refSample_eq, refHidden_eq])

end Cert.ReferenceIdeal.RefValue

end
-- ==== Proof.lean ====
/-
  A Pallas implementation of a variational graph auto-encoder's forward pass against its plain array-program reference:
  both end with equal results over the extended reals, and the kernel's frame claims hold.

  The model: with `Â` the self-looped, symmetrically degree-normalised adjacency of the edge list,
      H      = max (Â (x W1) + b1) 0
      mu     = Â (H Wmu) + bmu,      logvar = Â (H Wlv) + blv
      z      = eps · exp (logvar / 2) + mu
      recon  = logistic (Â (z W1) + b1),
  and the results are (recon, mu, logvar).

  The kernel computes the four matrix products and the three pointwise stages (bias and clamp; the two biases and the
  latent sample; bias and logistic) in seven launches over blocks of 4000 rows, and does the graph part — the
  normalisation, computed once, and each aggregation `Â · h` — with the same array operations as the reference, between
  the launches.  The reference recomputes the normalisation in each of its four convolutions, from the same operations.

  Both sides are shown equal to ONE function of the arguments (Proof/GraphSpec.lean):
  * the kernel: its run with the results named at the final contents of its fold through the fourteen segments
    (Proof/NamedRun.lean), the fold walked segment by segment (Proof/FoldWalk.lean) over each launch's closed form
    (Proof/Project0/2/3/5, Clamp1, Reparam4, Squash6) and each stretch's operations (Proof/Stretches.lean);
  * the reference: its run read back as composed terms (Proof/RefRun.lean), those terms layer by layer
    (Proof/RefLayers.lean).
  Over the extended reals a change of float format is the identity, a matrix product into a zero accumulator is the
  plain sum, and the logistic operation is the expression `1 / (1 + exp (-a))`; the only facts about numbers used are
  `0 + s = s` (inside the matrix product's reading) and that the floats `0.0` and `1.0` are the extended reals `0` and `1`;
  the same sums and products appear on both sides in the same order, so the precondition (finite inputs) is never opened.
  The ideal pass rewrote nothing, so the kernel's idealization is its own text read over the extended reals.
-/
import proofs.«173282_j33715493273730_1_alg».proof.Defs
import proofs.«173282_j33715493273730_1_alg».proof.Proof.Gen.Kernel
import proofs.«173282_j33715493273730_1_alg».proof.Proof.Gen.Kernel.Skeleton
import proofs.«173282_j33715493273730_1_alg».proof.Proof.Gen.Kernel.Launch
import proofs.«173282_j33715493273730_1_alg».proof.Proof.Gen.Kernel.Points
import proofs.«173282_j33715493273730_1_alg».proof.Proof.Gen.Kernel.Frame
import proofs.«173282_j33715493273730_1_alg».proof.Proof.Gen.KernelIdeal
import proofs.«173282_j33715493273730_1_alg».proof.Proof.Gen.KernelIdeal.Skeleton
import proofs.«173282_j33715493273730_1_alg».proof.Proof.Gen.KernelIdeal.Launch
import proofs.«173282_j33715493273730_1_alg».proof.Proof.Gen.KernelIdeal.Points
import proofs.«173282_j33715493273730_1_alg».proof.Proof.Gen.KernelIdeal.Frame
import proofs.«173282_j33715493273730_1_alg».proof.Proof.Gen.ReferenceIdeal
import proofs.«173282_j33715493273730_1_alg».proof.Proof.Gen.Pre_finite_inputs
import proofs.«173282_j33715493273730_1_alg».proof.Proof.GraphSpec
import proofs.«173282_j33715493273730_1_alg».proof.Proof.NamedRun
import proofs.«173282_j33715493273730_1_alg».proof.Proof.FoldWalk
import proofs.«173282_j33715493273730_1_alg».proof.Proof.RefRun
import proofs.«173282_j33715493273730_1_alg».proof.Proof.RefLayers
import Idealize.ShloMosaic.Adequacy
import Idealize.ShloMosaic.Init

set_option maxRecDepth 16384

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference's run, its results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The ideal pass rewrote nothing. -/
theorem preserves : Cert.preserves_Kernel_KernelIdeal := trivial

/-- From memories that agree on the arguments both programs end with the reconstruction, the mean and the
    log-variance of the specification at those arguments. -/
theorem algebraic : Cert.algebraic_KernelIdeal_ReferenceIdeal := by
  intro m ρ m' ρ' _ hagree
  refine ⟨fun c => Cert.Graph.squash (Cert.Graph.conv (Cert.KernelIdeal.Walk.eIn m c) (Cert.KernelIdeal.Walk.latent m c)
      (Cert.KernelIdeal.Walk.w1In m c) (Cert.KernelIdeal.Walk.b1In m c)),
    fun c => Cert.KernelIdeal.Walk.mean m c, fun c => Cert.KernelIdeal.Walk.logvar m c, ?_, ?_⟩
  · exact (θ_run Cert.KernelIdeal.defs _ _).mono (fun r h c =>
      ⟨(h c).1.trans (Cert.KernelIdeal.Walk.recon14 m ρ c), (h c).2.1.trans (Cert.KernelIdeal.Walk.mean14 m ρ c),
        (h c).2.2.1.trans (Cert.KernelIdeal.Walk.logvar14 m ρ c), (h c).2.2.2⟩) (Cert.KernelIdeal.NamedRun.run m ρ)
  · refine (θ_run Cert.ReferenceIdeal.defs _ _).mono (fun r h c =>
      ⟨(h c).1.trans ?_, (h c).2.1.trans ?_, (h c).2.2.1.trans ?_, (h c).2.2.2⟩)
      (Cert.ReferenceIdeal.ValueP.run (F := Ideal) m' ρ')
    · rw [Cert.ReferenceIdeal.RefValue.recon_eq m' c, (hagree c).1, (hagree c).2.1, (hagree c).2.2.1, (hagree c).2.2.2.1,
        (hagree c).2.2.2.2.1, (hagree c).2.2.2.2.2.1, (hagree c).2.2.2.2.2.2.1, (hagree c).2.2.2.2.2.2.2.1,
        (hagree c).2.2.2.2.2.2.2.2]
    · rw [Cert.ReferenceIdeal.RefValue.mu_eq m' c, (hagree c).1, (hagree c).2.1, (hagree c).2.2.2.1,
        (hagree c).2.2.2.2.1, (hagree c).2.2.2.2.2.1, (hagree c).2.2.2.2.2.2.1]
    · rw [Cert.ReferenceIdeal.RefValue.logvar_eq m' c, (hagree c).1, (hagree c).2.1, (hagree c).2.2.2.1,
        (hagree c).2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
